-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2x64 : Shape := ⟨3, ![8192, 2, 64]⟩
abbrev S10000x128 : Shape := ⟨2, ![10000, 128]⟩
abbrev S128 : Shape := ⟨1, ![128]⟩
abbrev S128x256 : Shape := ⟨2, ![128, 256]⟩
abbrev S7x128 : Shape := ⟨2, ![7, 128]⟩
abbrev S7 : Shape := ⟨1, ![7]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S7x128 : S_.BroadcastsInDim S7x128 (![] : Fin 0 → Fin S7x128.rank)
  reducesTo_S7x128_S_d0_1 : S7x128.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg8 : FVec F S7 .f32) (main_v33 : IVec S_ 1) : IVec S_ 1 :=
  let main_v34 : FVec F S7 .f32 := Host.absf main_arg8
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg5 : FVec F S128x256 .f32) (main_arg6 : FVec F S128 .f32) (main_arg7 : FVec F S7x128 .f32) (main_arg8 : FVec F S7 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S7x128 .f32 := Host.absf main_arg7
  let main_cst_10 : FVec F S_ .f32 := constant S_ .f32 0x7F800000#32
  let main_v30 : FVec F S7x128 .f32 := broadcastInDim S7x128 ![] bcast_S_S7x128 main_cst_10
  let main_v31 : IVec S7x128 1 := cmpf .olt main_v29 main_v30
  let main_c_11 : IVec S_ 1 := constantI S_ 1 1#1
  let main_v32 : IVec S_ 1 := (fun x v => Host.reduce IntOp.andi x v reducesTo_S7x128_S_d0_1 h_S_) main_v31 main_c_11
  let main_v33 : IVec S_ 1 := andi main_v28 main_v32
  fn_part2 (F := F) main_arg8 main_v33

def fn {F : FTy → Type} [FloatOps F] (main_arg0 : IVec S8192x2x64 32) (main_arg1 : FVec F S10000x128 .f32) (main_arg2 : FVec F S128 .f32) (main_arg3 : FVec F S128x256 .f32) (main_arg4 : FVec F S128 .f32) (main_arg5 : FVec F S128x256 .f32) (main_arg6 : FVec F S128 .f32) (main_arg7 : FVec F S7x128 .f32) (main_arg8 : FVec F S7 .f32) : IVec S_ 1 :=
  let main_v0 : FVec F S10000x128 .f32 := Host.absf main_arg1
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S8192x2x64 : Shape := ⟨3, ![8192, 2, 64]⟩
abbrev S10000x128 : Shape := ⟨2, ![10000, 128]⟩
abbrev S128 : Shape := ⟨1, ![128]⟩
abbrev S128x256 : Shape := ⟨2, ![128, 256]⟩
abbrev S7x128 : Shape := ⟨2, ![7, 128]⟩
abbrev S7 : Shape := ⟨1, ![7]⟩
abbrev S1x128 : Shape := ⟨2, ![1, 128]⟩
abbrev S_ : Shape := ⟨0, ![]⟩
abbrev S8192x2x64x1 : Shape := ⟨4, ![8192, 2, 64, 1]⟩
abbrev S8192x2x64x128 : Shape := ⟨4, ![8192, 2, 64, 128]⟩
abbrev S256x128 : Shape := ⟨2, ![256, 128]⟩
abbrev S128x7 : Shape := ⟨2, ![128, 7]⟩
abbrev S8192x7 : Shape := ⟨2, ![8192, 7]⟩
abbrev S128x2x64x128 : Shape := ⟨4, ![128, 2, 64, 128]⟩
abbrev S128x2x32x256 : Shape := ⟨4, ![128, 2, 32, 256]⟩
abbrev S8192x256 : Shape := ⟨2, ![8192, 256]⟩
abbrev S8192x128 : Shape := ⟨2, ![8192, 128]⟩
abbrev S128x2x32x128 : Shape := ⟨4, ![128, 2, 32, 128]⟩
abbrev S128x2x16x256 : Shape := ⟨4, ![128, 2, 16, 256]⟩
abbrev S4096x256 : Shape := ⟨2, ![4096, 256]⟩
abbrev S4096x128 : Shape := ⟨2, ![4096, 128]⟩
abbrev S128x2x16x128 : Shape := ⟨4, ![128, 2, 16, 128]⟩
abbrev S128x2x8x256 : Shape := ⟨4, ![128, 2, 8, 256]⟩
abbrev S2048x256 : Shape := ⟨2, ![2048, 256]⟩
abbrev S2048x128 : Shape := ⟨2, ![2048, 128]⟩
abbrev S128x2x8x128 : Shape := ⟨4, ![128, 2, 8, 128]⟩
abbrev S128x2x4x256 : Shape := ⟨4, ![128, 2, 4, 256]⟩
abbrev S1024x256 : Shape := ⟨2, ![1024, 256]⟩
abbrev S1024x128 : Shape := ⟨2, ![1024, 128]⟩
abbrev S128x2x4x128 : Shape := ⟨4, ![128, 2, 4, 128]⟩
abbrev S128x2x2x256 : Shape := ⟨4, ![128, 2, 2, 256]⟩
abbrev S512x256 : Shape := ⟨2, ![512, 256]⟩
abbrev S512x128 : Shape := ⟨2, ![512, 128]⟩
abbrev S128x2x2x128 : Shape := ⟨4, ![128, 2, 2, 128]⟩
abbrev S128x2x1x256 : Shape := ⟨4, ![128, 2, 1, 256]⟩
abbrev S256x256 : Shape := ⟨2, ![256, 256]⟩
abbrev S128x2x1x128 : Shape := ⟨4, ![128, 2, 1, 128]⟩
abbrev S128x128 : Shape := ⟨2, ![128, 128]⟩
abbrev S1x7 : Shape := ⟨2, ![1, 7]⟩
abbrev S128x1 : Shape := ⟨2, ![128, 1]⟩

abbrev nBuf : Space → Nat
  | .hbm => 29
  | .vmem => 10
  | .smem => 0
  | _ => 0

abbrev bufTy : (tb : Table) → Fin (tcTables nBuf tb) → BufTy
  | .hbm, ⟨0, _⟩ => ⟨S8192x2x64, .i32⟩
  | .hbm, ⟨1, _⟩ => ⟨S10000x128, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S7x128, .f32⟩
  | .hbm, ⟨8, _⟩ => ⟨S7, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .bf16⟩
  | .hbm, ⟨13, _⟩ => ⟨S_, .i32⟩
  | .hbm, ⟨14, _⟩ => ⟨S8192x2x64, .i32⟩
  | .hbm, ⟨15, _⟩ => ⟨S8192x2x64, .i1⟩
  | .hbm, ⟨16, _⟩ => ⟨S_, .i32⟩
  | .hbm, ⟨17, _⟩ => ⟨S8192x2x64, .i32⟩
  | .hbm, ⟨18, _⟩ => ⟨S8192x2x64, .i32⟩
  | .hbm, ⟨19, _⟩ => ⟨S8192x2x64, .i32⟩
  | .hbm, ⟨20, _⟩ => ⟨S8192x2x64x1, .i32⟩
  | .hbm, ⟨21, _⟩ => ⟨S8192x2x64x128, .bf16⟩
  | .hbm, ⟨22, _⟩ => ⟨S256x128, .f32⟩
  | .hbm, ⟨23, _⟩ => ⟨S256x128, .bf16⟩
  | .hbm, ⟨24, _⟩ => ⟨S256x128, .f32⟩
  | .hbm, ⟨25, _⟩ => ⟨S256x128, .bf16⟩
  | .hbm, ⟨26, _⟩ => ⟨S128x7, .f32⟩
  | .hbm, ⟨27, _⟩ => ⟨S128x7, .bf16⟩
  | .hbm, ⟨28, _⟩ => ⟨S8192x7, .f32⟩
  | .local _ .vmem, ⟨0, _⟩ => ⟨S128x2x64x128, .bf16⟩
  | .local _ .vmem, ⟨1, _⟩ => ⟨S128x2x64x128, .bf16⟩
  | .local _ .vmem, ⟨2, _⟩ => ⟨S256x128, .bf16⟩
  | .local _ .vmem, ⟨3, _⟩ => ⟨S128, .f32⟩
  | .local _ .vmem, ⟨4, _⟩ => ⟨S256x128, .bf16⟩
  | .local _ .vmem, ⟨5, _⟩ => ⟨S128, .f32⟩
  | .local _ .vmem, ⟨6, _⟩ => ⟨S128x7, .bf16⟩
  | .local _ .vmem, ⟨7, _⟩ => ⟨S7, .f32⟩
  | .local _ .vmem, ⟨8, _⟩ => ⟨S128x7, .f32⟩
  | .local _ .vmem, ⟨9, _⟩ => ⟨S128x7, .f32⟩
  | _, _ => ⟨S8192x2x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x7 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x7 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bitsLt_bf16_f32 : FTy.bits .bf16 < FTy.bits .f32
  bcast_S_S8192x2x64 : S_.BroadcastsInDim S8192x2x64 (![] : Fin 0 → Fin S8192x2x64.rank)
  bcast_S8192x2x64_S8192x2x64x1_0_1_2 : S8192x2x64.BroadcastsInDim S8192x2x64x1 (![0, 1, 2] : Fin 3 → Fin S8192x2x64x1.rank)
  transposes_S128x256_S256x128_1_0 : S128x256.Transposes [1, 0] S256x128
  transposes_S7x128_S128x7_1_0 : S7x128.Transposes [1, 0] S128x7
  inb_S128x2x64x128_S128x2x64x128_0_0_0_0 : ∀ a, (![0, 0, 0, 0] : Fin 4 → Nat) a + S128x2x64x128.size a ≤ S128x2x64x128.size a
  h_S128x2x64x128 : 0 < S128x2x64x128.numel
  shapeCasts_S128x2x64x128_S128x2x64x128 : S128x2x64x128.ShapeCasts S128x2x64x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128x2x64x128_S128x2x32x256 : S128x2x64x128.ShapeCasts S128x2x32x256
  shapeCasts_S128x2x32x256_S8192x256 : S128x2x32x256.ShapeCasts S8192x256
  shapeCasts_S128_S1x128 : S128.ShapeCasts S1x128
  broadcasts_S1x128_S8192x128 : S1x128.Broadcasts S8192x128
  shapeCasts_S8192x128_S128x2x32x128 : S8192x128.ShapeCasts S128x2x32x128
  shapeCasts_S128x2x32x128_S128x2x16x256 : S128x2x32x128.ShapeCasts S128x2x16x256
  shapeCasts_S128x2x16x256_S4096x256 : S128x2x16x256.ShapeCasts S4096x256
  broadcasts_S1x128_S4096x128 : S1x128.Broadcasts S4096x128
  shapeCasts_S4096x128_S128x2x16x128 : S4096x128.ShapeCasts S128x2x16x128
  shapeCasts_S128x2x16x128_S128x2x8x256 : S128x2x16x128.ShapeCasts S128x2x8x256
  shapeCasts_S128x2x8x256_S2048x256 : S128x2x8x256.ShapeCasts S2048x256
  broadcasts_S1x128_S2048x128 : S1x128.Broadcasts S2048x128
  shapeCasts_S2048x128_S128x2x8x128 : S2048x128.ShapeCasts S128x2x8x128
  shapeCasts_S128x2x8x128_S128x2x4x256 : S128x2x8x128.ShapeCasts S128x2x4x256
  shapeCasts_S128x2x4x256_S1024x256 : S128x2x4x256.ShapeCasts S1024x256
  broadcasts_S1x128_S1024x128 : S1x128.Broadcasts S1024x128
  shapeCasts_S1024x128_S128x2x4x128 : S1024x128.ShapeCasts S128x2x4x128
  shapeCasts_S128x2x4x128_S128x2x2x256 : S128x2x4x128.ShapeCasts S128x2x2x256
  shapeCasts_S128x2x2x256_S512x256 : S128x2x2x256.ShapeCasts S512x256
  broadcasts_S1x128_S512x128 : S1x128.Broadcasts S512x128
  shapeCasts_S512x128_S128x2x2x128 : S512x128.ShapeCasts S128x2x2x128
  shapeCasts_S128x2x2x128_S128x2x1x256 : S128x2x2x128.ShapeCasts S128x2x1x256
  shapeCasts_S128x2x1x256_S256x256 : S128x2x1x256.ShapeCasts S256x256
  broadcasts_S1x128_S256x128 : S1x128.Broadcasts S256x128
  shapeCasts_S256x128_S128x2x1x128 : S256x128.ShapeCasts S128x2x1x128
  shapeCasts_S128x2x1x128_S128x256 : S128x2x1x128.ShapeCasts S128x256
  broadcasts_S1x128_S128x128 : S1x128.Broadcasts S128x128
  inb_S128x7_S128x7_0_0 : ∀ a, (![0, 0] : Fin 2 → Nat) a + S128x7.size a ≤ S128x7.size a
  h_S128x7 : 0 < S128x7.numel
  shapeCasts_S128x7_S128x7 : S128x7.ShapeCasts S128x7
  inb_S7_S7_0 : ∀ a, (![0] : Fin 1 → Nat) a + S7.size a ≤ S7.size a
  h_S7 : 0 < S7.numel
  shapeCasts_S7_S1x7 : S7.ShapeCasts S1x7
  broadcasts_S1x7_S128x7 : S1x7.Broadcasts S128x7
  reduces_S128x7_S128 : S128x7.Reduces [1] S128
  shapeCasts_S128_S128x1 : S128.ShapeCasts S128x1
  broadcasts_S128x1_S128x7 : S128x1.Broadcasts S128x7
  gather_S10000x128_S8192x2x64x1_S8192x2x64x128_3_0_n_n_0_3_1128_wf : GatherDims.WF S10000x128 S8192x2x64x1 S8192x2x64x128 [3] [0] [] [0] [] 3 ![1, 128]
  dot_S8192x256_S256x128_S8192x128_1_0_0_1_n_n_wf : DotDims.WF S8192x256 S256x128 S8192x128 [1] [0] [0] [1] [] []
  dot_S4096x256_S256x128_S4096x128_1_0_0_1_n_n_wf : DotDims.WF S4096x256 S256x128 S4096x128 [1] [0] [0] [1] [] []
  dot_S2048x256_S256x128_S2048x128_1_0_0_1_n_n_wf : DotDims.WF S2048x256 S256x128 S2048x128 [1] [0] [0] [1] [] []
  dot_S1024x256_S256x128_S1024x128_1_0_0_1_n_n_wf : DotDims.WF S1024x256 S256x128 S1024x128 [1] [0] [0] [1] [] []
  dot_S512x256_S256x128_S512x128_1_0_0_1_n_n_wf : DotDims.WF S512x256 S256x128 S512x128 [1] [0] [0] [1] [] []
  dot_S256x256_S256x128_S256x128_1_0_0_1_n_n_wf : DotDims.WF S256x256 S256x128 S256x128 [1] [0] [0] [1] [] []
  dot_S128x256_S256x128_S128x128_1_0_0_1_n_n_wf : DotDims.WF S128x256 S256x128 S128x128 [1] [0] [0] [1] [] []
  dot_S128x128_S128x7_S128x7_1_0_0_1_n_n_wf : DotDims.WF S128x128 S128x7 S128x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2x64x128.size a ≤ S8192x2x64x128.size a
  hwx0_0 : ∀ i : grid0.Coords, EltTy.bits .bf16 = 32 ∨ (Rect.block (s := S8192x2x64x128) S128x2x64x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x7.size a ≤ S128x7.size a
  hwx0_5 : ∀ i : grid0.Coords, EltTy.bits .bf16 = 32 ∨ (Rect.block (s := S128x7) S128x7.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7.size a ≤ S7.size a
  hwx0_6 : ∀ i : grid0.Coords, EltTy.bits .f32 = 32 ∨ (Rect.block (s := S7) S7.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x7.size a ≤ S8192x7.size a
  hwx0_7 : ∀ i : grid0.Coords, EltTy.bits .f32 = 32 ∨ (Rect.block (s := S8192x7) S128x7.size (cc0_transform_7 i) (hinb0_7 i)).WholeWords (EltTy.packing .f32)

variable [Facts₀]

def gather_S10000x128_S8192x2x64x1_S8192x2x64x128_3_0_n_n_0_3_1128 : GatherDims S10000x128 S8192x2x64x1 S8192x2x64x128 where
  offsetDims := [3]
  collapsedSliceDims := [0]
  operandBatchingDims := []
  startIndicesBatchingDims := []
  startIndexMap := [0]
  indexVectorDim := 3
  sliceSizes := ![1, 128]
  wf := gather_S10000x128_S8192x2x64x1_S8192x2x64x128_3_0_n_n_0_3_1128_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x7_S128x7_1_0_0_1_n_n : DotDims S128x128 S128x7 S128x7 where
  lhsContracting := [1]
  rhsContracting := [0]
  lhsNonContracting := [0]
  rhsNonContracting := [1]
  lhsBatch := []
  rhsBatch := []
  wf := dot_S128x128_S128x7_S128x7_1_0_0_1_n_n_wf

abbrev win0_0 : Pipeline.Window sig grid0 :=
  Pipeline.Window.ofSpec (Memref.whole main_v10) S128x2x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S7.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S128x7.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2x64 : Shape := ⟨3, ![8192, 2, 64]⟩
abbrev S10000x128 : Shape := ⟨2, ![10000, 128]⟩
abbrev S128 : Shape := ⟨1, ![128]⟩
abbrev S128x256 : Shape := ⟨2, ![128, 256]⟩
abbrev S7x128 : Shape := ⟨2, ![7, 128]⟩
abbrev S7 : Shape := ⟨1, ![7]⟩
abbrev S_ : Shape := ⟨0, ![]⟩
abbrev S8192x2x64x1 : Shape := ⟨4, ![8192, 2, 64, 1]⟩
abbrev S8192x2x64x128 : Shape := ⟨4, ![8192, 2, 64, 128]⟩
abbrev S1x1x1x128 : Shape := ⟨4, ![1, 1, 1, 128]⟩
abbrev S8192x2x32x256 : Shape := ⟨4, ![8192, 2, 32, 256]⟩
abbrev S8192x2x32x128 : Shape := ⟨4, ![8192, 2, 32, 128]⟩
abbrev S8192x2x16x256 : Shape := ⟨4, ![8192, 2, 16, 256]⟩
abbrev S8192x2x16x128 : Shape := ⟨4, ![8192, 2, 16, 128]⟩
abbrev S8192x2x8x256 : Shape := ⟨4, ![8192, 2, 8, 256]⟩
abbrev S8192x2x8x128 : Shape := ⟨4, ![8192, 2, 8, 128]⟩
abbrev S8192x2x4x256 : Shape := ⟨4, ![8192, 2, 4, 256]⟩
abbrev S8192x2x4x128 : Shape := ⟨4, ![8192, 2, 4, 128]⟩
abbrev S8192x2x2x256 : Shape := ⟨4, ![8192, 2, 2, 256]⟩
abbrev S8192x2x2x128 : Shape := ⟨4, ![8192, 2, 2, 128]⟩
abbrev S8192x2x1x256 : Shape := ⟨4, ![8192, 2, 1, 256]⟩
abbrev S8192x2x1x128 : Shape := ⟨4, ![8192, 2, 1, 128]⟩
abbrev S8192x256 : Shape := ⟨2, ![8192, 256]⟩
abbrev S256x128 : Shape := ⟨2, ![256, 128]⟩
abbrev S8192x128 : Shape := ⟨2, ![8192, 128]⟩
abbrev S1x128 : Shape := ⟨2, ![1, 128]⟩
abbrev S128x7 : Shape := ⟨2, ![128, 7]⟩
abbrev S8192x7 : Shape := ⟨2, ![8192, 7]⟩
abbrev S1x7 : Shape := ⟨2, ![1, 7]⟩
abbrev S8192 : Shape := ⟨1, ![8192]⟩
abbrev S8192x1 : Shape := ⟨2, ![8192, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x2x64, .i32⟩
  | .hbm, ⟨1, _⟩ => ⟨S10000x128, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S7x128, .f32⟩
  | .hbm, ⟨8, _⟩ => ⟨S7, .f32⟩
  | .hbm, ⟨9, _⟩ => ⟨S_, .i32⟩
  | .hbm, ⟨10, _⟩ => ⟨S8192x2x64, .i32⟩
  | .hbm, ⟨11, _⟩ => ⟨S8192x2x64, .i1⟩
  | .hbm, ⟨12, _⟩ => ⟨S_, .i32⟩
  | .hbm, ⟨13, _⟩ => ⟨S8192x2x64, .i32⟩
  | .hbm, ⟨14, _⟩ => ⟨S8192x2x64, .i32⟩
  | .hbm, ⟨15, _⟩ => ⟨S8192x2x64, .i32⟩
  | .hbm, ⟨16, _⟩ => ⟨S8192x2x64x1, .i32⟩
  | .hbm, ⟨17, _⟩ => ⟨S8192x2x64x128, .f32⟩
  | .hbm, ⟨18, _⟩ => ⟨S1x1x1x128, .f32⟩
  | .hbm, ⟨19, _⟩ => ⟨S8192x2x64x128, .f32⟩
  | .hbm, ⟨20, _⟩ => ⟨S8192x2x64x128, .f32⟩
  | .hbm, ⟨21, _⟩ => ⟨S8192x2x32x256, .f32⟩
  | .hbm, ⟨22, _⟩ => ⟨S8192x2x32x128, .f32⟩
  | .hbm, ⟨23, _⟩ => ⟨S1x1x1x128, .f32⟩
  | .hbm, ⟨24, _⟩ => ⟨S8192x2x32x128, .f32⟩
  | .hbm, ⟨25, _⟩ => ⟨S8192x2x32x128, .f32⟩
  | .hbm, ⟨26, _⟩ => ⟨S8192x2x32x128, .f32⟩
  | .hbm, ⟨27, _⟩ => ⟨S8192x2x16x256, .f32⟩
  | .hbm, ⟨28, _⟩ => ⟨S8192x2x16x128, .f32⟩
  | .hbm, ⟨29, _⟩ => ⟨S1x1x1x128, .f32⟩
  | .hbm, ⟨30, _⟩ => ⟨S8192x2x16x128, .f32⟩
  | .hbm, ⟨31, _⟩ => ⟨S8192x2x16x128, .f32⟩
  | .hbm, ⟨32, _⟩ => ⟨S8192x2x16x128, .f32⟩
  | .hbm, ⟨33, _⟩ => ⟨S8192x2x8x256, .f32⟩
  | .hbm, ⟨34, _⟩ => ⟨S8192x2x8x128, .f32⟩
  | .hbm, ⟨35, _⟩ => ⟨S1x1x1x128, .f32⟩
  | .hbm, ⟨36, _⟩ => ⟨S8192x2x8x128, .f32⟩
  | .hbm, ⟨37, _⟩ => ⟨S8192x2x8x128, .f32⟩
  | .hbm, ⟨38, _⟩ => ⟨S8192x2x8x128, .f32⟩
  | .hbm, ⟨39, _⟩ => ⟨S8192x2x4x256, .f32⟩
  | .hbm, ⟨40, _⟩ => ⟨S8192x2x4x128, .f32⟩
  | .hbm, ⟨41, _⟩ => ⟨S1x1x1x128, .f32⟩
  | .hbm, ⟨42, _⟩ => ⟨S8192x2x4x128, .f32⟩
  | .hbm, ⟨43, _⟩ => ⟨S8192x2x4x128, .f32⟩
  | .hbm, ⟨44, _⟩ => ⟨S8192x2x4x128, .f32⟩
  | .hbm, ⟨45, _⟩ => ⟨S8192x2x2x256, .f32⟩
  | .hbm, ⟨46, _⟩ => ⟨S8192x2x2x128, .f32⟩
  | .hbm, ⟨47, _⟩ => ⟨S1x1x1x128, .f32⟩
  | .hbm, ⟨48, _⟩ => ⟨S8192x2x2x128, .f32⟩
  | .hbm, ⟨49, _⟩ => ⟨S8192x2x2x128, .f32⟩
  | .hbm, ⟨50, _⟩ => ⟨S8192x2x2x128, .f32⟩
  | .hbm, ⟨51, _⟩ => ⟨S8192x2x1x256, .f32⟩
  | .hbm, ⟨52, _⟩ => ⟨S8192x2x1x128, .f32⟩
  | .hbm, ⟨53, _⟩ => ⟨S1x1x1x128, .f32⟩
  | .hbm, ⟨54, _⟩ => ⟨S8192x2x1x128, .f32⟩
  | .hbm, ⟨55, _⟩ => ⟨S8192x2x1x128, .f32⟩
  | .hbm, ⟨56, _⟩ => ⟨S8192x2x1x128, .f32⟩
  | .hbm, ⟨57, _⟩ => ⟨S8192x256, .f32⟩
  | .hbm, ⟨58, _⟩ => ⟨S256x128, .f32⟩
  | .hbm, ⟨59, _⟩ => ⟨S8192x128, .f32⟩
  | .hbm, ⟨60, _⟩ => ⟨S1x128, .f32⟩
  | .hbm, ⟨61, _⟩ => ⟨S8192x128, .f32⟩
  | .hbm, ⟨62, _⟩ => ⟨S8192x128, .f32⟩
  | .hbm, ⟨63, _⟩ => ⟨S_, .f32⟩
  | .hbm, ⟨64, _⟩ => ⟨S8192x128, .f32⟩
  | .hbm, ⟨65, _⟩ => ⟨S8192x128, .i1⟩
  | .hbm, ⟨66, _⟩ => ⟨S_, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S128x7, .f32⟩
  | .hbm, ⟨71, _⟩ => ⟨S8192x7, .f32⟩
  | .hbm, ⟨72, _⟩ => ⟨S1x7, .f32⟩
  | .hbm, ⟨73, _⟩ => ⟨S8192x7, .f32⟩
  | .hbm, ⟨74, _⟩ => ⟨S8192x7, .f32⟩
  | .hbm, ⟨75, _⟩ => ⟨S_, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192x1, .f32⟩
  | .hbm, ⟨81, _⟩ => ⟨S8192x7, .f32⟩
  | .hbm, ⟨82, _⟩ => ⟨S8192x7, .f32⟩
  | .hbm, ⟨83, _⟩ => ⟨S8192x7, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x7, .f32⟩
  | .hbm, ⟨88, _⟩ => ⟨S8192x7, .f32⟩
  | _, _ => ⟨S8192x2x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst : Ref sig .tc := ⟨.hbm, 75, rfl⟩
abbrev main_v58 : Ref sig .tc := ⟨.hbm, 76, rfl⟩
abbrev main_cst_1 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_2 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]

class Facts₀ : Prop where
  bcast_S_S8192x2x64 : S_.BroadcastsInDim S8192x2x64 (![] : Fin 0 → Fin S8192x2x64.rank)
  bcast_S8192x2x64_S8192x2x64x1_0_1_2 : S8192x2x64.BroadcastsInDim S8192x2x64x1 (![0, 1, 2] : Fin 3 → Fin S8192x2x64x1.rank)
  bcast_S128_S1x1x1x128_3 : S128.BroadcastsInDim S1x1x1x128 (![3] : Fin 1 → Fin S1x1x1x128.rank)
  bcast_S1x1x1x128_S8192x2x64x128_0_1_2_3 : S1x1x1x128.BroadcastsInDim S8192x2x64x128 (![0, 1, 2, 3] : Fin 4 → Fin S8192x2x64x128.rank)
  shapeCasts_S8192x2x64x128_S8192x2x32x256 : S8192x2x64x128.ShapeCasts S8192x2x32x256
  bcast_S1x1x1x128_S8192x2x32x128_0_1_2_3 : S1x1x1x128.BroadcastsInDim S8192x2x32x128 (![0, 1, 2, 3] : Fin 4 → Fin S8192x2x32x128.rank)
  shapeCasts_S8192x2x32x128_S8192x2x16x256 : S8192x2x32x128.ShapeCasts S8192x2x16x256
  bcast_S1x1x1x128_S8192x2x16x128_0_1_2_3 : S1x1x1x128.BroadcastsInDim S8192x2x16x128 (![0, 1, 2, 3] : Fin 4 → Fin S8192x2x16x128.rank)
  shapeCasts_S8192x2x16x128_S8192x2x8x256 : S8192x2x16x128.ShapeCasts S8192x2x8x256
  bcast_S1x1x1x128_S8192x2x8x128_0_1_2_3 : S1x1x1x128.BroadcastsInDim S8192x2x8x128 (![0, 1, 2, 3] : Fin 4 → Fin S8192x2x8x128.rank)
  shapeCasts_S8192x2x8x128_S8192x2x4x256 : S8192x2x8x128.ShapeCasts S8192x2x4x256
  bcast_S1x1x1x128_S8192x2x4x128_0_1_2_3 : S1x1x1x128.BroadcastsInDim S8192x2x4x128 (![0, 1, 2, 3] : Fin 4 → Fin S8192x2x4x128.rank)
  shapeCasts_S8192x2x4x128_S8192x2x2x256 : S8192x2x4x128.ShapeCasts S8192x2x2x256
  bcast_S1x1x1x128_S8192x2x2x128_0_1_2_3 : S1x1x1x128.BroadcastsInDim S8192x2x2x128 (![0, 1, 2, 3] : Fin 4 → Fin S8192x2x2x128.rank)
  shapeCasts_S8192x2x2x128_S8192x2x1x256 : S8192x2x2x128.ShapeCasts S8192x2x1x256
  bcast_S1x1x1x128_S8192x2x1x128_0_1_2_3 : S1x1x1x128.BroadcastsInDim S8192x2x1x128 (![0, 1, 2, 3] : Fin 4 → Fin S8192x2x1x128.rank)
  shapeCasts_S8192x2x1x128_S8192x256 : S8192x2x1x128.ShapeCasts S8192x256
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S7x128_S128x7_1_0 : S7x128.Transposes [1, 0] S128x7
  bcast_S7_S1x7_1 : S7.BroadcastsInDim S1x7 (![1] : Fin 1 → Fin S1x7.rank)
  bcast_S1x7_S8192x7_0_1 : S1x7.BroadcastsInDim S8192x7 (![0, 1] : Fin 2 → Fin S8192x7.rank)
  reducesTo_S8192x7_S8192_d1 : S8192x7.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x7_0_1 : S8192x1.BroadcastsInDim S8192x7 (![0, 1] : Fin 2 → Fin S8192x7.rank)
  gather_S10000x128_S8192x2x64x1_S8192x2x64x128_3_0_n_n_0_3_1128_wf : GatherDims.WF S10000x128 S8192x2x64x1 S8192x2x64x128 [3] [0] [] [0] [] 3 ![1, 128]
  dot_S8192x2x32x256_S128x256_S8192x2x32x128_3_1_012_0_n_n_wf : DotDims.WF S8192x2x32x256 S128x256 S8192x2x32x128 [3] [1] [0, 1, 2] [0] [] []
  dot_S8192x2x16x256_S128x256_S8192x2x16x128_3_1_012_0_n_n_wf : DotDims.WF S8192x2x16x256 S128x256 S8192x2x16x128 [3] [1] [0, 1, 2] [0] [] []
  dot_S8192x2x8x256_S128x256_S8192x2x8x128_3_1_012_0_n_n_wf : DotDims.WF S8192x2x8x256 S128x256 S8192x2x8x128 [3] [1] [0, 1, 2] [0] [] []
  dot_S8192x2x4x256_S128x256_S8192x2x4x128_3_1_012_0_n_n_wf : DotDims.WF S8192x2x4x256 S128x256 S8192x2x4x128 [3] [1] [0, 1, 2] [0] [] []
  dot_S8192x2x2x256_S128x256_S8192x2x2x128_3_1_012_0_n_n_wf : DotDims.WF S8192x2x2x256 S128x256 S8192x2x2x128 [3] [1] [0, 1, 2] [0] [] []
  dot_S8192x2x1x256_S128x256_S8192x2x1x128_3_1_012_0_n_n_wf : DotDims.WF S8192x2x1x256 S128x256 S8192x2x1x128 [3] [1] [0, 1, 2] [0] [] []
  dot_S8192x256_S256x128_S8192x128_1_0_0_1_n_n_wf : DotDims.WF S8192x256 S256x128 S8192x128 [1] [0] [0] [1] [] []
  dot_S8192x128_S128x7_S8192x7_1_0_0_1_n_n_wf : DotDims.WF S8192x128 S128x7 S8192x7 [1] [0] [0] [1] [] []

variable [Facts₀]

def gather_S10000x128_S8192x2x64x1_S8192x2x64x128_3_0_n_n_0_3_1128 : GatherDims S10000x128 S8192x2x64x1 S8192x2x64x128 where
  offsetDims := [3]
  collapsedSliceDims := [0]
  operandBatchingDims := []
  startIndicesBatchingDims := []
  startIndexMap := [0]
  indexVectorDim := 3
  sliceSizes := ![1, 128]
  wf := gather_S10000x128_S8192x2x64x1_S8192x2x64x128_3_0_n_n_0_3_1128_wf
def dot_S8192x2x32x256_S128x256_S8192x2x32x128_3_1_012_0_n_n : DotDims S8192x2x32x256 S128x256 S8192x2x32x128 where
  lhsContracting := [3]
  rhsContracting := [1]
  lhsNonContracting := [0, 1, 2]
  rhsNonContracting := [0]
  lhsBatch := []
  rhsBatch := []
  wf := dot_S8192x2x32x256_S128x256_S8192x2x32x128_3_1_012_0_n_n_wf
def dot_S8192x2x16x256_S128x256_S8192x2x16x128_3_1_012_0_n_n : DotDims S8192x2x16x256 S128x256 S8192x2x16x128 where
  lhsContracting := [3]
  rhsContracting := [1]
  lhsNonContracting := [0, 1, 2]
  rhsNonContracting := [0]
  lhsBatch := []
  rhsBatch := []
  wf := dot_S8192x2x16x256_S128x256_S8192x2x16x128_3_1_012_0_n_n_wf
def dot_S8192x2x8x256_S128x256_S8192x2x8x128_3_1_012_0_n_n : DotDims S8192x2x8x256 S128x256 S8192x2x8x128 where
  lhsContracting := [3]
  rhsContracting := [1]
  lhsNonContracting := [0, 1, 2]
  rhsNonContracting := [0]
  lhsBatch := []
  rhsBatch := []
  wf := dot_S8192x2x8x256_S128x256_S8192x2x8x128_3_1_012_0_n_n_wf
def dot_S8192x2x4x256_S128x256_S8192x2x4x128_3_1_012_0_n_n : DotDims S8192x2x4x256 S128x256 S8192x2x4x128 where
  lhsContracting := [3]
  rhsContracting := [1]
  lhsNonContracting := [0, 1, 2]
  rhsNonContracting := [0]
  lhsBatch := []
  rhsBatch := []
  wf := dot_S8192x2x4x256_S128x256_S8192x2x4x128_3_1_012_0_n_n_wf
def dot_S8192x2x2x256_S128x256_S8192x2x2x128_3_1_012_0_n_n : DotDims S8192x2x2x256 S128x256 S8192x2x2x128 where
  lhsContracting := [3]
  rhsContracting := [1]
  lhsNonContracting := [0, 1, 2]
  rhsNonContracting := [0]
  lhsBatch := []
  rhsBatch := []
  wf := dot_S8192x2x2x256_S128x256_S8192x2x2x128_3_1_012_0_n_n_wf
def dot_S8192x2x1x256_S128x256_S8192x2x1x128_3_1_012_0_n_n : DotDims S8192x2x1x256 S128x256 S8192x2x1x128 where
  lhsContracting := [3]
  rhsContracting := [1]
  lhsNonContracting := [0, 1, 2]
  rhsNonContracting := [0]
  lhsBatch := []
  rhsBatch := []
  wf := dot_S8192x2x1x256_S128x256_S8192x2x1x128_3_1_012_0_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x7_S8192x7_1_0_0_1_n_n : DotDims S8192x128 S128x7 S8192x7 where
  lhsContracting := [1]
  rhsContracting := [0]
  lhsNonContracting := [0]
  rhsNonContracting := [1]
  lhsBatch := []
  rhsBatch := []
  wf := dot_S8192x128_S128x7_S8192x7_1_0_0_1_n_n_wf

class Facts : Prop extends Facts₀ where

variable [Facts]
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibDenseLayer.lean ====
/-
  A dense layer in the kernel's and in the host's spelling, and a concatenation on the last axis, read at an index.

  A dense layer sends a row x of cin numbers to cout numbers: unit q is the sum over k of x k times the weight at
  (k, q), plus the bias at q (`dense`). A kernel multiplies n rows into a zero accumulator, reads its weights through a
  reshape to their own shape, and adds the bias vector viewed as one row and repeated down the rows
  (`kdense_apply`). The host takes a general dot product and adds the bias broadcast along dimension 1 and then along
  both dimensions (`hdense_apply`). On the extended reals, read at (p, q), either is `dense` of row p of the input.
  A concatenation on the last axis of an a × b × c₁ and an a × b × c₂ array reads, at (p, q, i), the first at i when
  i < c₁ and the second at i − c₁ otherwise (`catLast_apply`; the joined extent is a separate variable with the
  equation c = c₁ + c₂ as a hypothesis, so that a literal need not be spelt as a sum). All over variable extents.
-/
import proofs.«173905_j52063593563027_2_alg».proof.Proof.LibPlainDot
import proofs.«173905_j52063593563027_2_alg».proof.Proof.LibMergeRows
import proofs.«173905_j52063593563027_2_alg».proof.Proof.LibRowBroadcasts
import Idealize.ShloMosaic.Lib.Pipeline.Value
import Idealize.ShloMosaic.Lib.ValueIdx
import Idealize.ShloMosaic.PureOps.Ideal.Laws

noncomputable section

namespace Cert.Lib.Dense

open Idealize.ShloMosaic Idealize.ShloMosaic.ValueIdx Cert.Lib
open scoped BigOperators

variable {n cin cout : Nat}

/-- Unit q of a dense layer before its activation: the row against column q of the weights, plus the bias at q. -/
def dense (x : Fin cin → EReal) (W : (⟨2, ![cin, cout]⟩ : Shape).Idx → EReal)
    (bias : (⟨1, ![cout]⟩ : Shape).Idx → EReal) (q : Fin cout) : EReal :=
  (∑ k : Fin cin, x k * W (ix2 k q)) + bias (ix1 q)

/-- The kernel's dense layer at (p, q). -/
theorem kdense_apply (wf : DotDims.WF ⟨2, ![n, cin]⟩ ⟨2, ![cin, cout]⟩ ⟨2, ![n, cout]⟩ [1] [0] [0] [1] [] [])
    {φ₁ φ₂ : FTy} (X : FVec Ideal ⟨2, ![n, cin]⟩ φ₁) (W : FVec Ideal ⟨2, ![cin, cout]⟩ φ₂)
    (bias : FVec Ideal ⟨1, ![cout]⟩ .f32)
    (hW : (⟨2, ![cin, cout]⟩ : Shape).ShapeCasts ⟨2, ![cin, cout]⟩)
    (hc : (⟨1, ![cout]⟩ : Shape).ShapeCasts ⟨2, ![1, cout]⟩)
    (hb : (⟨2, ![1, cout]⟩ : Shape).Broadcasts ⟨2, ![n, cout]⟩) (p : Fin n) (q : Fin cout) :
    addf (matmul (PlainDot.dims wf) none X (shapeCast ⟨2, ![cin, cout]⟩ W hW) (constant ⟨2, ![n, cout]⟩ .f32 0x00000000#32))
        (broadcastTo ⟨2, ![n, cout]⟩ (shapeCast ⟨2, ![1, cout]⟩ bias hc) hb) (ix2 p q)
      = dense (fun k => X (ix2 p k)) W bias q := by
  rw [shapeCast_self]
  simp only [addf, Ideal.addf_def]
  rw [PlainDot.matmul_zero_apply, Rows.bcastRow_apply, MergeRows.row_apply]
  rfl

/-- The host's dense layer at (p, q). -/
theorem hdense_apply (wf : DotDims.WF ⟨2, ![n, cin]⟩ ⟨2, ![cin, cout]⟩ ⟨2, ![n, cout]⟩ [1] [0] [0] [1] [] [])
    {φ₁ φ₂ : FTy} (X : FVec Ideal ⟨2, ![n, cin]⟩ φ₁) (W : FVec Ideal ⟨2, ![cin, cout]⟩ φ₂)
    (bias : FVec Ideal ⟨1, ![cout]⟩ .f32)
    (h1 : (⟨1, ![cout]⟩ : Shape).BroadcastsInDim ⟨2, ![1, cout]⟩ ![1])
    (h2 : (⟨2, ![1, cout]⟩ : Shape).BroadcastsInDim ⟨2, ![n, cout]⟩ ![0, 1]) (p : Fin n) (q : Fin cout) :
    addf (Host.dotGeneral (PlainDot.dims wf) none X W)
        (broadcastInDim ⟨2, ![n, cout]⟩ ![0, 1] h2 (broadcastInDim ⟨2, ![1, cout]⟩ ![1] h1 bias)) (ix2 p q)
      = dense (fun k => X (ix2 p k)) W bias q := by
  simp only [addf, Ideal.addf_def]
  rw [PlainDot.dotGeneral_apply, Rows.dimRow_apply]
  have e : broadcastInDim ⟨2, ![1, cout]⟩ ![1] h1 bias (ix2 (0 : Fin 1) q) = bias (ix1 q) :=
    broadcastInDim_apply _ h1 bias (ix2 (0 : Fin 1) q) (ix1 q) fun ax => by
      match ax with
      | ⟨0, _⟩ =>
        show q.val = if cout = 1 then 0 else q.val
        split
        · have := q.isLt; omega
        · rfl
  rw [e]
  rfl

/-- A concatenation on the last axis of an a × b × c₁ and an a × b × c₂ array, at (p, q, i). -/
theorem catLast_apply {α : Type} {a b c₁ c₂ c : Nat} (hc : c = c₁ + c₂)
    (x₁ : (⟨3, ![a, b, c₁]⟩ : Shape).Idx → α) (x₂ : (⟨3, ![a, b, c₂]⟩ : Shape).Idx → α)
    (h : Shape.Concatenates [(⟨3, ![a, b, c₁]⟩ : Shape), ⟨3, ![a, b, c₂]⟩] ⟨3, ![a, b, c]⟩ 2)
    (p : Fin a) (q : Fin b) (i : Fin c) :
    concatenate ⟨3, ![a, b, c]⟩ 2 [⟨⟨3, ![a, b, c₁]⟩, x₁⟩, ⟨⟨3, ![a, b, c₂]⟩, x₂⟩] h (ix3 p q i)
      = if hlt : i.val < c₁ then x₁ (ix3 p q ⟨i.val, hlt⟩)
        else x₂ (ix3 p q ⟨i.val - c₁, by have := i.isLt; omega⟩) := by
  split
  · next hlt =>
    exact concatenate_pair_apply_left 2 x₁ x₂ h (ix3 p q i) rfl (ix3 p q ⟨i.val, hlt⟩) fun ax => by
      match ax with
      | ⟨0, _⟩ => rfl
      | ⟨1, _⟩ => rfl
      | ⟨2, _⟩ => rfl
  · next hge =>
    exact concatenate_pair_apply_right 2 x₁ x₂ h (ix3 p q i) rfl rfl
      (ix3 p q ⟨i.val - c₁, by have := i.isLt; omega⟩)
      (fun ax hax => by
        match ax, hax with
        | ⟨0, _⟩, _ => rfl
        | ⟨1, _⟩, _ => rfl
        | ⟨2, _⟩, hax => exact absurd rfl hax)
      (by show (i.val - c₁) + c₁ = i.val; omega)

end Cert.Lib.Dense

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.TreeNet.lean ====
/-
  The network both programs compute, as one function of the argument arrays.

  A batch entry holds two complete binary trees of 64 leaves; a leaf is a row of the vocabulary table, selected by the
  entry's token, plus the leaf bias. One composition level sends the nodes 2i and 2i + 1 of a tree, each a vector of
  128 numbers, to node i: the 256 numbers of the pair against row d of the 128 × 256 composition weights, plus the
  bias at d, through tanh (`up`). Six levels take 64 leaves to the root (`root`). The two roots side by side are 256
  numbers (`pair`); a dense layer with a leaky rectifier of slope f32(0.01) gives 128 (`hidden`), a second dense layer 7
  logits (`logits`), and the softmax of the logits, taken after subtracting their maximum (a fold of max from -inf),
  is the result row (`softmax`). All of it on the extended reals, the three literals kept as the words they are
  printed as.
-/
import Idealize.ShloMosaic.PureOps.Ideal
import Idealize.ShloMosaic.Lib.ValueIdx

noncomputable section

namespace Cert.TreeNet

open Idealize.ShloMosaic Idealize.ShloMosaic.ValueIdx
open scoped BigOperators

/-- Position 2i + j / 128 of the finer level: the left node of pair i for j < 128, the right node otherwise. -/
abbrev child {n2 n : ℕ} (hn : n2 = 2 * n) (i : Fin n) (j : Fin 256) : Fin n2 :=
  ⟨2 * i.val + j.val / 128, by have := i.isLt; have := j.isLt; omega⟩

/-- Feature j mod 128 of that node. -/
abbrev feat (j : Fin 256) : Fin 128 := ⟨j.val % 128, Nat.mod_lt _ (by decide)⟩

/-- One composition level of one tree: node i of the coarser level, feature d. -/
def up {n2 n : ℕ} (hn : n2 = 2 * n) (W : Fin 128 → Fin 256 → EReal) (cb : Fin 128 → EReal)
    (h : Fin n2 → Fin 128 → EReal) : Fin n → Fin 128 → EReal :=
  fun i d => Ideal.tanh ((∑ j : Fin 256, h (child hn i j) (feat j) * W d j) + cb d)

/-- The root of a tree of 64 leaves: six levels. -/
def root (W : Fin 128 → Fin 256 → EReal) (cb : Fin 128 → EReal) (leaves : Fin 64 → Fin 128 → EReal) : Fin 128 → EReal :=
  up (n2 := 2) (n := 1) rfl W cb
    (up (n2 := 4) (n := 2) rfl W cb
      (up (n2 := 8) (n := 4) rfl W cb
        (up (n2 := 16) (n := 8) rfl W cb
          (up (n2 := 32) (n := 16) rfl W cb
            (up (n2 := 64) (n := 32) rfl W cb leaves))))) 0

/-- The two roots of a batch entry side by side. -/
def pair (W : Fin 128 → Fin 256 → EReal) (cb : Fin 128 → EReal) (trees : Fin 2 → Fin 64 → Fin 128 → EReal) :
    Fin 256 → EReal :=
  fun j => root W cb (trees ⟨j.val / 128, by have := j.isLt; omega⟩) (feat j)

/-- The rectifier's slope, the f32 word of 0.01. -/
def slope : EReal := Ideal.ofBits .f32 0x3C23D70A#32

/-- The leaky rectifier. -/
def leaky (z : EReal) : EReal := if 0 < z then z else slope * z

/-- The hidden layer: 256 numbers against row c of the 128 × 256 weights, plus the bias, rectified. -/
def hidden (Wr : Fin 128 → Fin 256 → EReal) (rb : Fin 128 → EReal) (x : Fin 256 → EReal) : Fin 128 → EReal :=
  fun c => leaky ((∑ j : Fin 256, x j * Wr c j) + rb c)

/-- The logits: 128 numbers against row r of the 7 × 128 weights, plus the bias. -/
def logits (Ws : Fin 7 → Fin 128 → EReal) (sb : Fin 7 → EReal) (z : Fin 128 → EReal) : Fin 7 → EReal :=
  fun r => (∑ c : Fin 128, z c * Ws r c) + sb r

/-- The value a row maximum starts from, the f32 word of -inf. -/
def ninf : EReal := Ideal.ofBits .f32 0xFF800000#32

/-- The maximum of seven numbers, folded from -inf. -/
def rowMax (l : Fin 7 → EReal) : EReal := (Finset.univ : Finset (Fin 7)).fold max ninf l

/-- The softmax of seven logits. -/
def softmax (l : Fin 7 → EReal) : Fin 7 → EReal :=
  fun r => Ideal.div (Ideal.exp (l r - rowMax l)) (∑ k : Fin 7, Ideal.exp (l k - rowMax l))

/-- One batch entry's result row from its two trees of leaves. -/
def net (W : Fin 128 → Fin 256 → EReal) (cb : Fin 128 → EReal) (Wr : Fin 128 → Fin 256 → EReal) (rb : Fin 128 → EReal)
    (Ws : Fin 7 → Fin 128 → EReal) (sb : Fin 7 → EReal) (trees : Fin 2 → Fin 64 → Fin 128 → EReal) : Fin 7 → EReal :=
  softmax (logits Ws sb (hidden Wr rb (pair W cb trees)))

/-- The leaves of batch entry b: the table's row gathered for each token, plus the leaf bias. -/
def leaves (gd : GatherDims ⟨2, ![10000, 128]⟩ ⟨4, ![8192, 2, 64, 1]⟩ ⟨4, ![8192, 2, 64, 128]⟩)
    (idx : IVec ⟨4, ![8192, 2, 64, 1]⟩ 32) (vw : (⟨2, ![10000, 128]⟩ : Shape).Idx → EReal)
    (vb : (⟨1, ![128]⟩ : Shape).Idx → EReal) (b : Fin 8192) : Fin 2 → Fin 64 → Fin 128 → EReal :=
  fun s l d => Host.gather gd vw idx (ix4 b s l d) + vb (ix1 d)

/-- The result array: row b is the network of entry b's leaves. -/
def G (gd : GatherDims ⟨2, ![10000, 128]⟩ ⟨4, ![8192, 2, 64, 1]⟩ ⟨4, ![8192, 2, 64, 128]⟩)
    (idx : IVec ⟨4, ![8192, 2, 64, 1]⟩ 32) (vw : (⟨2, ![10000, 128]⟩ : Shape).Idx → EReal)
    (vb : (⟨1, ![128]⟩ : Shape).Idx → EReal) (cw : (⟨2, ![128, 256]⟩ : Shape).Idx → EReal)
    (cb : (⟨1, ![128]⟩ : Shape).Idx → EReal) (rw : (⟨2, ![128, 256]⟩ : Shape).Idx → EReal)
    (rb : (⟨1, ![128]⟩ : Shape).Idx → EReal) (sw : (⟨2, ![7, 128]⟩ : Shape).Idx → EReal)
    (sb : (⟨1, ![7]⟩ : Shape).Idx → EReal) : (⟨2, ![8192, 7]⟩ : Shape).Idx → EReal :=
  fun i => net (fun d j => cw (ix2 d j)) (fun d => cb (ix1 d)) (fun c j => rw (ix2 c j)) (fun c => rb (ix1 c))
    (fun r c => sw (ix2 r c)) (fun r => sb (ix1 r)) (leaves gd idx vw vb (i 0)) (i 1)

end Cert.TreeNet

end
-- ==== Proof.KernelLevels.lean ====
/-
  One composition level, the pairing reshape, and a block of rows, in a kernel body's spelling, read at an index.

  Every reshape keeps row-major order, so a chain of reshapes reads, at an index, the first operand at the index with
  the same row-major position (`cast2_apply`, `cast3_apply`). An a × 128 array of node vectors reshaped to r × 256 with
  a = 2 r puts nodes 2ρ and 2ρ + 1 side by side in row ρ: entry (ρ, j) is entry (2ρ + j / 128, j mod 128) of the
  operand (`pairRows2`, `pairRows3`; `pairLeaves` is the same reading of a 128 × 2 × 64 × 128 block of leaves through its
  16384 flat rows, `flatLeaves`). A product of the paired rows into a zero accumulator with the 256 × 128 weights, plus the
  bias as a row repeated down the rows, through tanh, is then the level `TreeNet.up` of the operand's rows, row by row
  (`level_apply`). Because node i of the coarser level reads only nodes 2i and 2i + 1 of the finer one, a level
  applied to a block of consecutive rows is that block of the level applied to all rows (`up_block`).
-/
import proofs.«173905_j52063593563027_2_alg».proof.Proof.LibDenseLayer
import proofs.«173905_j52063593563027_2_alg».proof.Proof.LibKeepdims
import proofs.«173905_j52063593563027_2_alg».proof.Proof.TreeNet
import Idealize.ShloMosaic.Lib.Pipeline.Value
import Idealize.ShloMosaic.Lib.ValueIdx
import Idealize.ShloMosaic.PureOps.Ideal.Laws

noncomputable section

namespace Cert.TreeNet

open Idealize.ShloMosaic Idealize.ShloMosaic.ValueIdx Cert.Lib
open scoped BigOperators

/-! ## Chains of reshapes -/

/-- Two reshapes in a row read the operand at the index with the same row-major position. -/
theorem cast2_apply {s t u : Shape} {α : Type} (x : s.Idx → α) (h1 : s.ShapeCasts t) (h2 : t.ShapeCasts u) (j : u.Idx)
    (k : s.Idx) (hk : (s.rowMajor k).val = (u.rowMajor j).val) : shapeCast u (shapeCast t x h1) h2 j = x k := by
  show x (Shape.reshapeEquiv h1 (Shape.reshapeEquiv h2 j)) = x k
  refine congrArg x (Shape.reshapeEquiv_eq_of_rowMajor h1 ?_)
  rw [hk, Shape.rowMajor_reshapeEquiv]

/-- Three reshapes in a row likewise. -/
theorem cast3_apply {s t u w : Shape} {α : Type} (x : s.Idx → α) (h1 : s.ShapeCasts t) (h2 : t.ShapeCasts u)
    (h3 : u.ShapeCasts w) (j : w.Idx) (k : s.Idx) (hk : (s.rowMajor k).val = (w.rowMajor j).val) :
    shapeCast w (shapeCast u (shapeCast t x h1) h2) h3 j = x k := by
  show x (Shape.reshapeEquiv h1 (Shape.reshapeEquiv h2 (Shape.reshapeEquiv h3 j))) = x k
  refine congrArg x (Shape.reshapeEquiv_eq_of_rowMajor h1 ?_)
  rw [hk, Shape.rowMajor_reshapeEquiv, Shape.rowMajor_reshapeEquiv]

/-! ## Pairing adjacent rows -/

/-- Through three reshapes, a × 128 to r × 256 with a = 2 r: entry (ρ, j) is the operand's (2ρ + j / 128, j mod 128). -/
theorem pairRows3 {a r : ℕ} (ha : a = 2 * r) {t u : Shape} {α : Type} (A : (⟨2, ![a, 128]⟩ : Shape).Idx → α)
    (h1 : (⟨2, ![a, 128]⟩ : Shape).ShapeCasts t) (h2 : t.ShapeCasts u) (h3 : u.ShapeCasts ⟨2, ![r, 256]⟩)
    (ρ : Fin r) (j : Fin 256) :
    shapeCast ⟨2, ![r, 256]⟩ (shapeCast u (shapeCast t A h1) h2) h3 (ix2 ρ j) = A (ix2 (child ha ρ j) (feat j)) :=
  cast3_apply A h1 h2 h3 _ _ (by
    rw [Shape.rowMajor_val_two, Shape.rowMajor_val_two]
    show (2 * ρ.val + j.val / 128) * 128 + j.val % 128 = ρ.val * 256 + j.val
    omega)

/-- Through two reshapes likewise. -/
theorem pairRows2 {a r : ℕ} (ha : a = 2 * r) {t : Shape} {α : Type} (A : (⟨2, ![a, 128]⟩ : Shape).Idx → α)
    (h1 : (⟨2, ![a, 128]⟩ : Shape).ShapeCasts t) (h2 : t.ShapeCasts ⟨2, ![r, 256]⟩) (ρ : Fin r) (j : Fin 256) :
    shapeCast ⟨2, ![r, 256]⟩ (shapeCast t A h1) h2 (ix2 ρ j) = A (ix2 (child ha ρ j) (feat j)) :=
  cast2_apply A h1 h2 _ _ (by
    rw [Shape.rowMajor_val_two, Shape.rowMajor_val_two]
    show (2 * ρ.val + j.val / 128) * 128 + j.val % 128 = ρ.val * 256 + j.val
    omega)

/-- A 128 × 2 × 64 × 128 block of leaves as 16384 flat rows of 128: row i is leaf i mod 64 of tree (i / 64) mod 2 of
    entry i / 128. -/
def flatLeaves (X : (⟨4, ![128, 2, 64, 128]⟩ : Shape).Idx → EReal) : Fin 16384 → Fin 128 → EReal :=
  fun i d => X (ix4 (⟨i.val / 128, by have := i.isLt; omega⟩ : Fin 128) (⟨i.val / 64 % 2, Nat.mod_lt _ (by decide)⟩ : Fin 2)
    (⟨i.val % 64, Nat.mod_lt _ (by decide)⟩ : Fin 64) d)

/-- The block of leaves through three reshapes to 8192 × 256: entry (ρ, j) is flat row 2ρ + j / 128 at j mod 128. -/
theorem pairLeaves {t u : Shape} (X : (⟨4, ![128, 2, 64, 128]⟩ : Shape).Idx → EReal)
    (h1 : (⟨4, ![128, 2, 64, 128]⟩ : Shape).ShapeCasts t) (h2 : t.ShapeCasts u) (h3 : u.ShapeCasts ⟨2, ![8192, 256]⟩)
    (ρ : Fin 8192) (j : Fin 256) :
    shapeCast ⟨2, ![8192, 256]⟩ (shapeCast u (shapeCast t X h1) h2) h3 (ix2 ρ j)
      = flatLeaves X (child (n2 := 16384) (n := 8192) rfl ρ j) (feat j) :=
  cast3_apply X h1 h2 h3 _ _ (by
    rw [Shape.rowMajor_val_two, Shape.rowMajor_val_four]
    show ((((2 * ρ.val + j.val / 128) / 128) * 2 + (2 * ρ.val + j.val / 128) / 64 % 2) * 64
        + (2 * ρ.val + j.val / 128) % 64) * 128 + j.val % 128 = ρ.val * 256 + j.val
    have := ρ.isLt
    have := j.isLt
    omega)

/-! ## One level -/

/-- Changing the finer level's rows to equal ones changes nothing. -/
theorem up_congr {n2 n : ℕ} (hn : n2 = 2 * n) (W : Fin 128 → Fin 256 → EReal) (cb : Fin 128 → EReal)
    {h h' : Fin n2 → Fin 128 → EReal} (e : ∀ i d, h i d = h' i d) (i : Fin n) (d : Fin 128) :
    up hn W cb h i d = up hn W cb h' i d := by
  have : h = h' := funext fun i => funext fun d => e i d
  rw [this]

/-- A level in a kernel body's spelling: the paired rows `B` (read as pairs of the rows `src`) times the weights into a zero
    accumulator, plus the bias row repeated down the rows, through tanh. -/
theorem level_apply {a r : ℕ} (ha : a = 2 * r)
    (wf : DotDims.WF ⟨2, ![r, 256]⟩ ⟨2, ![256, 128]⟩ ⟨2, ![r, 128]⟩ [1] [0] [0] [1] [] []) {φ₁ φ₂ : FTy}
    (B : FVec Ideal ⟨2, ![r, 256]⟩ φ₁) (src : Fin a → Fin 128 → EReal)
    (hB : ∀ (ρ : Fin r) (j : Fin 256), B (ix2 ρ j) = src (child ha ρ j) (feat j))
    (W : FVec Ideal ⟨2, ![256, 128]⟩ φ₂) (bias : FVec Ideal ⟨1, ![128]⟩ .f32)
    (hW : (⟨2, ![256, 128]⟩ : Shape).ShapeCasts ⟨2, ![256, 128]⟩)
    (hc : (⟨1, ![128]⟩ : Shape).ShapeCasts ⟨2, ![1, 128]⟩)
    (hb : (⟨2, ![1, 128]⟩ : Shape).Broadcasts ⟨2, ![r, 128]⟩) (ρ : Fin r) (d : Fin 128) :
    tanh (addf (matmul (PlainDot.dims wf) none B (shapeCast ⟨2, ![256, 128]⟩ W hW) (constant ⟨2, ![r, 128]⟩ .f32 0x00000000#32))
        (broadcastTo ⟨2, ![r, 128]⟩ (shapeCast ⟨2, ![1, 128]⟩ bias hc) hb)) (ix2 ρ d)
      = up ha (fun d j => W (ix2 j d)) (fun d => bias (ix1 d)) src ρ d := by
  refine congrArg Ideal.tanh ((Dense.kdense_apply wf B W bias hW hc hb ρ d).trans ?_)
  unfold Dense.dense
  simp only [hB]

/-- A level whose paired rows are three reshapes of the a × 128 array `A`. -/
theorem level3_apply {a r : ℕ} (ha : a = 2 * r)
    (wf : DotDims.WF ⟨2, ![r, 256]⟩ ⟨2, ![256, 128]⟩ ⟨2, ![r, 128]⟩ [1] [0] [0] [1] [] []) {φ₁ φ₂ : FTy} {t u : Shape}
    (A : FVec Ideal ⟨2, ![a, 128]⟩ φ₁) (h1 : (⟨2, ![a, 128]⟩ : Shape).ShapeCasts t) (h2 : t.ShapeCasts u)
    (h3 : u.ShapeCasts ⟨2, ![r, 256]⟩) (W : FVec Ideal ⟨2, ![256, 128]⟩ φ₂) (bias : FVec Ideal ⟨1, ![128]⟩ .f32)
    (hW : (⟨2, ![256, 128]⟩ : Shape).ShapeCasts ⟨2, ![256, 128]⟩)
    (hc : (⟨1, ![128]⟩ : Shape).ShapeCasts ⟨2, ![1, 128]⟩)
    (hb : (⟨2, ![1, 128]⟩ : Shape).Broadcasts ⟨2, ![r, 128]⟩) (ρ : Fin r) (d : Fin 128) :
    tanh (addf (matmul (PlainDot.dims wf) none (shapeCast ⟨2, ![r, 256]⟩ (shapeCast u (shapeCast t A h1) h2) h3)
          (shapeCast ⟨2, ![256, 128]⟩ W hW) (constant ⟨2, ![r, 128]⟩ .f32 0x00000000#32))
        (broadcastTo ⟨2, ![r, 128]⟩ (shapeCast ⟨2, ![1, 128]⟩ bias hc) hb)) (ix2 ρ d)
      = up ha (fun d j => W (ix2 j d)) (fun d => bias (ix1 d)) (fun i d => A (ix2 i d)) ρ d :=
  level_apply ha wf _ (fun i d => A (ix2 i d)) (pairRows3 ha A h1 h2 h3) W bias hW hc hb ρ d

/-- The same when `A` is the previous level's pre-activation `A'` through tanh and a change of float format, which
    changes nothing at the exact values. -/
theorem level3T_apply {a r : ℕ} (ha : a = 2 * r)
    (wf : DotDims.WF ⟨2, ![r, 256]⟩ ⟨2, ![256, 128]⟩ ⟨2, ![r, 128]⟩ [1] [0] [0] [1] [] []) {φ₂ : FTy} {t u : Shape}
    (A' : FVec Ideal ⟨2, ![a, 128]⟩ .f32) (hlt : FTy.bits .bf16 < FTy.bits .f32)
    (h1 : (⟨2, ![a, 128]⟩ : Shape).ShapeCasts t) (h2 : t.ShapeCasts u)
    (h3 : u.ShapeCasts ⟨2, ![r, 256]⟩) (W : FVec Ideal ⟨2, ![256, 128]⟩ φ₂) (bias : FVec Ideal ⟨1, ![128]⟩ .f32)
    (hW : (⟨2, ![256, 128]⟩ : Shape).ShapeCasts ⟨2, ![256, 128]⟩)
    (hc : (⟨1, ![128]⟩ : Shape).ShapeCasts ⟨2, ![1, 128]⟩)
    (hb : (⟨2, ![1, 128]⟩ : Shape).Broadcasts ⟨2, ![r, 128]⟩) (ρ : Fin r) (d : Fin 128) :
    tanh (addf (matmul (PlainDot.dims wf) none
          (shapeCast ⟨2, ![r, 256]⟩ (shapeCast u (shapeCast t (truncf .bf16 (tanh A') hlt) h1) h2) h3)
          (shapeCast ⟨2, ![256, 128]⟩ W hW) (constant ⟨2, ![r, 128]⟩ .f32 0x00000000#32))
        (broadcastTo ⟨2, ![r, 128]⟩ (shapeCast ⟨2, ![1, 128]⟩ bias hc) hb)) (ix2 ρ d)
      = up ha (fun d j => W (ix2 j d)) (fun d => bias (ix1 d)) (fun i d => tanh A' (ix2 i d)) ρ d :=
  level3_apply ha wf (truncf .bf16 (tanh A') hlt) h1 h2 h3 W bias hW hc hb ρ d

/-- The first level: the paired rows are three reshapes of the block of leaves. -/
theorem levelLeaves_apply
    (wf : DotDims.WF ⟨2, ![8192, 256]⟩ ⟨2, ![256, 128]⟩ ⟨2, ![8192, 128]⟩ [1] [0] [0] [1] [] []) {φ₂ : FTy} {t u : Shape}
    (X : FVec Ideal ⟨4, ![128, 2, 64, 128]⟩ .bf16) (h1 : (⟨4, ![128, 2, 64, 128]⟩ : Shape).ShapeCasts t)
    (h2 : t.ShapeCasts u) (h3 : u.ShapeCasts ⟨2, ![8192, 256]⟩) (W : FVec Ideal ⟨2, ![256, 128]⟩ φ₂)
    (bias : FVec Ideal ⟨1, ![128]⟩ .f32) (hW : (⟨2, ![256, 128]⟩ : Shape).ShapeCasts ⟨2, ![256, 128]⟩)
    (hc : (⟨1, ![128]⟩ : Shape).ShapeCasts ⟨2, ![1, 128]⟩)
    (hb : (⟨2, ![1, 128]⟩ : Shape).Broadcasts ⟨2, ![8192, 128]⟩) (ρ : Fin 8192) (d : Fin 128) :
    tanh (addf (matmul (PlainDot.dims wf) none (shapeCast ⟨2, ![8192, 256]⟩ (shapeCast u (shapeCast t X h1) h2) h3)
          (shapeCast ⟨2, ![256, 128]⟩ W hW) (constant ⟨2, ![8192, 128]⟩ .f32 0x00000000#32))
        (broadcastTo ⟨2, ![8192, 128]⟩ (shapeCast ⟨2, ![1, 128]⟩ bias hc) hb)) (ix2 ρ d)
      = up (n2 := 16384) (n := 8192) rfl (fun d j => W (ix2 j d)) (fun d => bias (ix1 d)) (flatLeaves X) ρ d :=
  level_apply (a := 16384) (r := 8192) rfl wf _ (flatLeaves X) (pairLeaves X h1 h2 h3) W bias hW hc hb ρ d

/-! ## A block of rows -/

/-- A level applied to the block of rows that starts at row 2 · off of a longer array is the block that starts at row
    off of the level applied to the whole array. -/
theorem up_block {n2 n m2 m : ℕ} (hn : n2 = 2 * n) (hm : m2 = 2 * m) (W : Fin 128 → Fin 256 → EReal)
    (cb : Fin 128 → EReal) (A : Fin m2 → Fin 128 → EReal) (T : Fin n2 → Fin 128 → EReal) (off2 off : ℕ)
    (h2 : off2 = 2 * off) (hb : off + n ≤ m)
    (hT : ∀ (i : Fin n2) (d : Fin 128), T i d = A ⟨off2 + i.val, by have := i.isLt; omega⟩ d) (i : Fin n) (d : Fin 128) :
    up hn W cb T i d = up hm W cb A ⟨off + i.val, by have := i.isLt; omega⟩ d := by
  unfold up
  refine congrArg (fun s => Ideal.tanh (s + cb d)) (Finset.sum_congr rfl fun j _ => ?_)
  rw [hT]
  refine congrArg (fun k => A k (feat j) * W d j) (Fin.ext ?_)
  show off2 + (2 * i.val + j.val / 128) = 2 * (off + i.val) + j.val / 128
  omega

end Cert.TreeNet

end
-- ==== Proof.KernelTree.lean ====
/-
  From the flat rows a kernel block is computed in to the trees of one batch entry.

  A block holds 128 batch entries; its 16384 leaf vectors, in row-major order, are the leaves of tree s of entry p at rows
  (2p + s) · 64 + l. Six levels over all the rows at once (`flat6`) leave 256 rows, and row 2p + s is the root of that
  tree: at every level the nodes of one tree are a block of consecutive rows, and a level applied to such a block is the
  block of the level applied to everything (`TreeNet.up_block`), six times (`root_of_flat`). Two adjacent rows side by side
  are then the pair of roots of entry p (`pair_of_flat`).
-/
import proofs.«173905_j52063593563027_2_alg».proof.Proof.KernelLevels

noncomputable section

namespace Cert.TreeNet

open Idealize.ShloMosaic Idealize.ShloMosaic.ValueIdx
open scoped BigOperators

/-- Six levels over the 16384 flat rows of a block of leaves: 256 rows remain. -/
def flat6 (W : Fin 128 → Fin 256 → EReal) (cb : Fin 128 → EReal) (X : (⟨4, ![128, 2, 64, 128]⟩ : Shape).Idx → EReal) :
    Fin 256 → Fin 128 → EReal :=
  up (n2 := 512) (n := 256) rfl W cb
    (up (n2 := 1024) (n := 512) rfl W cb
      (up (n2 := 2048) (n := 1024) rfl W cb
        (up (n2 := 4096) (n := 2048) rfl W cb
          (up (n2 := 8192) (n := 4096) rfl W cb
            (up (n2 := 16384) (n := 8192) rfl W cb (flatLeaves X))))))

/-- Row 2p + s of the six levels over the block is the root of tree s of entry p. -/
theorem root_of_flat (W : Fin 128 → Fin 256 → EReal) (cb : Fin 128 → EReal)
    (X : (⟨4, ![128, 2, 64, 128]⟩ : Shape).Idx → EReal) (p : Fin 128) (s : Fin 2) (d : Fin 128) :
    root W cb (fun l d => X (ix4 p s l d)) d
      = flat6 W cb X ⟨2 * p.val + s.val, by have := p.isLt; have := s.isLt; omega⟩ d := by
  have hp := p.isLt
  have hs := s.isLt
  have h0 : ∀ (i : Fin 64) (d : Fin 128), (fun l d => X (ix4 p s l d)) i d
      = flatLeaves X ⟨(2 * p.val + s.val) * 64 + i.val, by have := i.isLt; omega⟩ d := by
    intro i d
    have hi := i.isLt
    refine congrArg X (funext fun a => Fin.ext ?_)
    match a with
    | ⟨0, _⟩ => show p.val = ((2 * p.val + s.val) * 64 + i.val) / 128; omega
    | ⟨1, _⟩ => show s.val = ((2 * p.val + s.val) * 64 + i.val) / 64 % 2; omega
    | ⟨2, _⟩ => show i.val = ((2 * p.val + s.val) * 64 + i.val) % 64; omega
    | ⟨3, _⟩ => rfl
  have h1 := up_block (n2 := 64) (n := 32) (m2 := 16384) (m := 8192) rfl rfl W cb (flatLeaves X) _
    ((2 * p.val + s.val) * 64) ((2 * p.val + s.val) * 32) (by omega) (by omega) h0
  have h2 := up_block (n2 := 32) (n := 16) (m2 := 8192) (m := 4096) rfl rfl W cb _ _
    ((2 * p.val + s.val) * 32) ((2 * p.val + s.val) * 16) (by omega) (by omega) h1
  have h3 := up_block (n2 := 16) (n := 8) (m2 := 4096) (m := 2048) rfl rfl W cb _ _
    ((2 * p.val + s.val) * 16) ((2 * p.val + s.val) * 8) (by omega) (by omega) h2
  have h4 := up_block (n2 := 8) (n := 4) (m2 := 2048) (m := 1024) rfl rfl W cb _ _
    ((2 * p.val + s.val) * 8) ((2 * p.val + s.val) * 4) (by omega) (by omega) h3
  have h5 := up_block (n2 := 4) (n := 2) (m2 := 1024) (m := 512) rfl rfl W cb _ _
    ((2 * p.val + s.val) * 4) ((2 * p.val + s.val) * 2) (by omega) (by omega) h4
  have h6 := up_block (n2 := 2) (n := 1) (m2 := 512) (m := 256) rfl rfl W cb _ _
    ((2 * p.val + s.val) * 2) ((2 * p.val + s.val) * 1) (by omega) (by omega) h5
  refine (h6 0 d).trans ?_
  refine congrArg (fun k => flat6 W cb X k d) (Fin.ext ?_)
  show (2 * p.val + s.val) * 1 + 0 = 2 * p.val + s.val
  omega

/-- Rows 2p and 2p + 1 of the six levels side by side are the pair of roots of entry p. -/
theorem pair_of_flat (W : Fin 128 → Fin 256 → EReal) (cb : Fin 128 → EReal)
    (X : (⟨4, ![128, 2, 64, 128]⟩ : Shape).Idx → EReal) (p : Fin 128) (j : Fin 256) :
    flat6 W cb X (child (n2 := 256) (n := 128) rfl p j) (feat j) = pair W cb (fun s l d => X (ix4 p s l d)) j :=
  (root_of_flat W cb X p ⟨j.val / 128, by have := j.isLt; omega⟩ (feat j)).symm

end Cert.TreeNet

end
-- ==== Proof.KernelHeads.lean ====
/-
  The heads of the network in a kernel body's spelling, read at an index.

  The hidden layer is a product into a zero accumulator plus a bias row, then a select between z and slope · z on the
  comparison z > 0 (`hidden_apply`); the logits are a second such product plus bias (`logits_apply`); the softmax
  subtracts each row's maximum — a lane reduction from the word of -inf, kept as a column and repeated along the row —,
  exponentiates, and divides by the row's sum, a lane reduction from zero kept the same way (`softmax_apply`). Each
  is the matching function of `TreeNet` of row p of its operand.
-/
import proofs.«173905_j52063593563027_2_alg».proof.Proof.LibDenseLayer
import proofs.«173905_j52063593563027_2_alg».proof.Proof.LibKeepdims
import proofs.«173905_j52063593563027_2_alg».proof.Proof.TreeNet
import Idealize.ShloMosaic.Lib.Pipeline.Value
import Idealize.ShloMosaic.Lib.ValueIdx
import Idealize.ShloMosaic.PureOps.Ideal.Laws

noncomputable section

namespace Cert.TreeNet

open Idealize.ShloMosaic Idealize.ShloMosaic.ValueIdx Cert.Lib
open scoped BigOperators

/-- The select on z > 0 between z and slope · z is the leaky rectifier. -/
theorem select_ogt_eq_leaky (z : EReal) :
    Scalar.select (Ideal.cmp .ogt z (Ideal.ofBits .f32 0x00000000#32)) z (Ideal.ofBits .f32 0x3C23D70A#32 * z) = leaky z := by
  unfold Scalar.select Ideal.cmp leaky slope
  rw [Ideal.ofBits_zero_f32]
  by_cases h : (0 : EReal) < z
  · simp [h]
  · simp [h]

/-- The hidden layer at (p, c). -/
theorem hidden_apply {n : ℕ} (wf : DotDims.WF ⟨2, ![n, 256]⟩ ⟨2, ![256, 128]⟩ ⟨2, ![n, 128]⟩ [1] [0] [0] [1] [] [])
    {φ₁ φ₂ : FTy} (R : FVec Ideal ⟨2, ![n, 256]⟩ φ₁) (W : FVec Ideal ⟨2, ![256, 128]⟩ φ₂) (bias : FVec Ideal ⟨1, ![128]⟩ .f32)
    (hW : (⟨2, ![256, 128]⟩ : Shape).ShapeCasts ⟨2, ![256, 128]⟩) (hc : (⟨1, ![128]⟩ : Shape).ShapeCasts ⟨2, ![1, 128]⟩)
    (hb : (⟨2, ![1, 128]⟩ : Shape).Broadcasts ⟨2, ![n, 128]⟩) (p : Fin n) (c : Fin 128) :
    select
        (cmpf .ogt
          (addf (matmul (PlainDot.dims wf) none R (shapeCast ⟨2, ![256, 128]⟩ W hW) (constant ⟨2, ![n, 128]⟩ .f32 0x00000000#32))
            (broadcastTo ⟨2, ![n, 128]⟩ (shapeCast ⟨2, ![1, 128]⟩ bias hc) hb))
          (broadcast ⟨2, ![n, 128]⟩ (Scalar.ofBits (F := Ideal) .f32 0x00000000#32)))
        (addf (matmul (PlainDot.dims wf) none R (shapeCast ⟨2, ![256, 128]⟩ W hW) (constant ⟨2, ![n, 128]⟩ .f32 0x00000000#32))
          (broadcastTo ⟨2, ![n, 128]⟩ (shapeCast ⟨2, ![1, 128]⟩ bias hc) hb))
        (mulf (broadcast ⟨2, ![n, 128]⟩ (Scalar.ofBits (F := Ideal) .f32 0x3C23D70A#32))
          (addf (matmul (PlainDot.dims wf) none R (shapeCast ⟨2, ![256, 128]⟩ W hW) (constant ⟨2, ![n, 128]⟩ .f32 0x00000000#32))
            (broadcastTo ⟨2, ![n, 128]⟩ (shapeCast ⟨2, ![1, 128]⟩ bias hc) hb))) (ix2 p c)
      = hidden (fun c j => W (ix2 j c)) (fun c => bias (ix1 c)) (fun j => R (ix2 p j)) c := by
  have key : ∀ (Z : FVec Ideal ⟨2, ![n, 128]⟩ .f32) (z : EReal), Z (ix2 p c) = z →
      select (cmpf .ogt Z (broadcast ⟨2, ![n, 128]⟩ (Scalar.ofBits (F := Ideal) .f32 0x00000000#32))) Z
        (mulf (broadcast ⟨2, ![n, 128]⟩ (Scalar.ofBits (F := Ideal) .f32 0x3C23D70A#32)) Z) (ix2 p c) = leaky z := by
    intro Z z hz
    show Scalar.select (Ideal.cmp .ogt (Z (ix2 p c)) (Ideal.ofBits .f32 0x00000000#32)) (Z (ix2 p c))
      (Ideal.ofBits .f32 0x3C23D70A#32 * Z (ix2 p c)) = leaky z
    rw [hz]
    exact select_ogt_eq_leaky z
  exact key _ _ (Dense.kdense_apply wf R W bias hW hc hb p c)

/-- The hidden layer after a change of float format, which changes nothing at the exact values. -/
theorem hiddenT_apply {n : ℕ} (wf : DotDims.WF ⟨2, ![n, 256]⟩ ⟨2, ![256, 128]⟩ ⟨2, ![n, 128]⟩ [1] [0] [0] [1] [] [])
    {φ₁ φ₂ : FTy} (R : FVec Ideal ⟨2, ![n, 256]⟩ φ₁) (W : FVec Ideal ⟨2, ![256, 128]⟩ φ₂) (bias : FVec Ideal ⟨1, ![128]⟩ .f32)
    (hlt : FTy.bits .bf16 < FTy.bits .f32)
    (hW : (⟨2, ![256, 128]⟩ : Shape).ShapeCasts ⟨2, ![256, 128]⟩) (hc : (⟨1, ![128]⟩ : Shape).ShapeCasts ⟨2, ![1, 128]⟩)
    (hb : (⟨2, ![1, 128]⟩ : Shape).Broadcasts ⟨2, ![n, 128]⟩) (p : Fin n) (c : Fin 128) :
    truncf .bf16 (select
        (cmpf .ogt
          (addf (matmul (PlainDot.dims wf) none R (shapeCast ⟨2, ![256, 128]⟩ W hW) (constant ⟨2, ![n, 128]⟩ .f32 0x00000000#32))
            (broadcastTo ⟨2, ![n, 128]⟩ (shapeCast ⟨2, ![1, 128]⟩ bias hc) hb))
          (broadcast ⟨2, ![n, 128]⟩ (Scalar.ofBits (F := Ideal) .f32 0x00000000#32)))
        (addf (matmul (PlainDot.dims wf) none R (shapeCast ⟨2, ![256, 128]⟩ W hW) (constant ⟨2, ![n, 128]⟩ .f32 0x00000000#32))
          (broadcastTo ⟨2, ![n, 128]⟩ (shapeCast ⟨2, ![1, 128]⟩ bias hc) hb))
        (mulf (broadcast ⟨2, ![n, 128]⟩ (Scalar.ofBits (F := Ideal) .f32 0x3C23D70A#32))
          (addf (matmul (PlainDot.dims wf) none R (shapeCast ⟨2, ![256, 128]⟩ W hW) (constant ⟨2, ![n, 128]⟩ .f32 0x00000000#32))
            (broadcastTo ⟨2, ![n, 128]⟩ (shapeCast ⟨2, ![1, 128]⟩ bias hc) hb)))) hlt (ix2 p c)
      = hidden (fun c j => W (ix2 j c)) (fun c => bias (ix1 c)) (fun j => R (ix2 p j)) c :=
  hidden_apply wf R W bias hW hc hb p c

/-- The logits at (p, r). -/
theorem logits_apply {n : ℕ} (wf : DotDims.WF ⟨2, ![n, 128]⟩ ⟨2, ![128, 7]⟩ ⟨2, ![n, 7]⟩ [1] [0] [0] [1] [] [])
    {φ₁ φ₂ : FTy} (Z : FVec Ideal ⟨2, ![n, 128]⟩ φ₁) (W : FVec Ideal ⟨2, ![128, 7]⟩ φ₂) (bias : FVec Ideal ⟨1, ![7]⟩ .f32)
    (hW : (⟨2, ![128, 7]⟩ : Shape).ShapeCasts ⟨2, ![128, 7]⟩) (hc : (⟨1, ![7]⟩ : Shape).ShapeCasts ⟨2, ![1, 7]⟩)
    (hb : (⟨2, ![1, 7]⟩ : Shape).Broadcasts ⟨2, ![n, 7]⟩) (p : Fin n) (r : Fin 7) :
    addf (matmul (PlainDot.dims wf) none Z (shapeCast ⟨2, ![128, 7]⟩ W hW) (constant ⟨2, ![n, 7]⟩ .f32 0x00000000#32))
        (broadcastTo ⟨2, ![n, 7]⟩ (shapeCast ⟨2, ![1, 7]⟩ bias hc) hb) (ix2 p r)
      = logits (fun r c => W (ix2 c r)) (fun r => bias (ix1 r)) (fun c => Z (ix2 p c)) r :=
  Dense.kdense_apply wf Z W bias hW hc hb p r

/-- The reduced index p with lane k put back is (p, k). -/
theorem lift_lane {n : ℕ} (h : (⟨2, ![n, 7]⟩ : Shape).Reduces [1] (⟨1, ![n]⟩ : Shape)) (p : Fin n)
    (k : Fin ((⟨2, ![n, 7]⟩ : Shape).size 1)) : h.lift (ix1 p) k = ix2 p (⟨k.val, k.isLt⟩ : Fin 7) := by
  funext c; apply Fin.ext
  fin_cases c <;> rfl

/-- The softmax at (p, r). -/
theorem softmax_apply {n : ℕ} (L : FVec Ideal ⟨2, ![n, 7]⟩ .f32)
    (hred : (⟨2, ![n, 7]⟩ : Shape).Reduces [1] (⟨1, ![n]⟩ : Shape)) (hφ : FKind.Formats .f32)
    (haccM : (0xFF800000#32 : BitVec 32) = FKind.maximumf.neutral .f32 hφ)
    (haccS : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, 7]⟩)
    (p : Fin n) (r : Fin 7) :
    divf
        (exp (subf L (broadcastTo ⟨2, ![n, 7]⟩
          (shapeCast ⟨2, ![n, 1]⟩ (multiReduction .maximumf [1] ⟨1, ![n]⟩ L 0xFF800000#32 hred hφ haccM) hc) hb)))
        (broadcastTo ⟨2, ![n, 7]⟩
          (shapeCast ⟨2, ![n, 1]⟩
            (multiReduction .add [1] ⟨1, ![n]⟩
              (exp (subf L (broadcastTo ⟨2, ![n, 7]⟩
                (shapeCast ⟨2, ![n, 1]⟩ (multiReduction .maximumf [1] ⟨1, ![n]⟩ L 0xFF800000#32 hred hφ haccM) hc) hb)))
              0x00000000#32 hred hφ haccS) hc) hb) (ix2 p r)
      = softmax (fun r => L (ix2 p r)) r := by
  generalize hM : broadcastTo ⟨2, ![n, 7]⟩
      (shapeCast ⟨2, ![n, 1]⟩ (multiReduction .maximumf [1] ⟨1, ![n]⟩ L 0xFF800000#32 hred hφ haccM) hc) hb = M
  have hmax : ∀ q : Fin 7, M (ix2 p q) = rowMax (fun r => L (ix2 p r)) := by
    intro q
    rw [← hM, Keepdims.bcastCol_apply, Keepdims.col_apply]
    refine (Ideal.multiReduction_maximumf_single L 0xFF800000#32 hred hφ haccM (ix1 p)).trans ?_
    unfold rowMax ninf
    refine congrArg (fun f => Finset.fold max (Ideal.ofBits .f32 0xFF800000#32) f (Finset.univ : Finset (Fin 7))) ?_
    funext k
    exact congrArg L (lift_lane hred p k)
  generalize hE : exp (subf L M) = E
  have hexp : ∀ q : Fin 7, E (ix2 p q) = Ideal.exp (L (ix2 p q) - rowMax (fun r => L (ix2 p r))) := by
    intro q
    rw [← hE]
    show Ideal.exp (L (ix2 p q) - M (ix2 p q)) = _
    rw [hmax]
  show Ideal.div (E (ix2 p r)) (broadcastTo ⟨2, ![n, 7]⟩
      (shapeCast ⟨2, ![n, 1]⟩ (multiReduction .add [1] ⟨1, ![n]⟩ E 0x00000000#32 hred hφ haccS) hc) hb (ix2 p r)) = _
  rw [hexp, Keepdims.bcastCol_apply, Keepdims.col_apply]
  refine congrArg (Ideal.div _) ?_
  refine (Ideal.multiReduction_add_single E 0x00000000#32 hred hφ haccS (ix1 p)).trans ?_
  refine Finset.sum_congr rfl fun k _ => ?_
  rw [lift_lane hred p k]
  exact hexp _

end Cert.TreeNet

end
-- ==== Proof.KernelBody.lean ====
/-
  What the kernel body stores, at an index: the network of one batch entry's leaves.

  The body loads a block of 128 entries' leaves, the transposed weights and the biases, whole; it computes five levels
  and the fifth level's pre-activation over the block's flat rows in one stretch (`pay2_apply`), then the sixth level,
  the pair of roots, the two dense heads and the softmax (`pay3_apply`), and stores the 128 × 7 result whole
  (`out_apply`). Row p of what it stores is `TreeNet.net` of the two trees of entry p of the block, with the weights
  read transposed back.
-/
import proofs.«173905_j52063593563027_2_alg».proof.Proof.Gen.KernelIdeal.Frame
import proofs.«173905_j52063593563027_2_alg».proof.Proof.KernelTree
import proofs.«173905_j52063593563027_2_alg».proof.Proof.KernelHeads

noncomputable section

namespace Cert.KernelIdeal.Body

open Cert.KernelIdeal Cert.KernelIdeal.Gen Idealize.ShloMosaic Idealize.ShloMosaic.ValueIdx Cert.TreeNet

variable (x0 : Vec Ideal S128x2x64x128 .bf16) (x1 : Vec Ideal S256x128 .bf16) (x2 : Vec Ideal S128 .f32)
  (x3 : Vec Ideal S256x128 .bf16) (x4 : Vec Ideal S128 .f32) (x5 : Vec Ideal S128x7 .bf16) (x6 : Vec Ideal S7 .f32)

/-- The fifth level's pre-activation, through tanh: five levels over the block's 16384 flat rows. -/
theorem pay2_apply (ρ : Fin 512) (d : Fin 128) :
    tanh (k0_pay2 x0 x1 x2) (ix2 ρ d)
      = up (n2 := 1024) (n := 512) rfl (fun d j => x1 (ix2 j d)) (fun d => x2 (ix1 d))
          (up (n2 := 2048) (n := 1024) rfl (fun d j => x1 (ix2 j d)) (fun d => x2 (ix1 d))
            (up (n2 := 4096) (n := 2048) rfl (fun d j => x1 (ix2 j d)) (fun d => x2 (ix1 d))
              (up (n2 := 8192) (n := 4096) rfl (fun d j => x1 (ix2 j d)) (fun d => x2 (ix1 d))
                (up (n2 := 16384) (n := 8192) rfl (fun d j => x1 (ix2 j d)) (fun d => x2 (ix1 d)) (flatLeaves x0))))) ρ d := by
  unfold k0_pay2
  refine (level3T_apply (a := 1024) (r := 512) rfl _ _ _ _ _ _ _ _ _ _ _ ρ d).trans (up_congr _ _ _ (fun i d' => ?_) ρ d)
  refine (level3T_apply (a := 2048) (r := 1024) rfl _ _ _ _ _ _ _ _ _ _ _ i d').trans (up_congr _ _ _ (fun i d' => ?_) i d')
  refine (level3T_apply (a := 4096) (r := 2048) rfl _ _ _ _ _ _ _ _ _ _ _ i d').trans (up_congr _ _ _ (fun i d' => ?_) i d')
  refine (level3T_apply (a := 8192) (r := 4096) rfl _ _ _ _ _ _ _ _ _ _ _ i d').trans (up_congr _ _ _ (fun i d' => ?_) i d')
  exact levelLeaves_apply _ _ _ _ _ _ _ _ _ _ i d'

/-- The stored value at (p, r). -/
theorem pay3_apply (p : Fin 128) (r : Fin 7) :
    k0_pay3 (k0_pay1 x1) x2 (k0_pay2 x0 x1 x2) x3 x4 x5 x6 (ix2 p r)
      = net (fun d j => x1 (ix2 j d)) (fun d => x2 (ix1 d)) (fun c j => x3 (ix2 j c)) (fun c => x4 (ix1 c)) (fun r c => x5 (ix2 c r))
          (fun r => x6 (ix1 r)) (fun s l d => x0 (ix4 p s l d)) r := by
  unfold k0_pay3
  refine (softmax_apply (n := 128) _ _ _ _ _ _ _ p r).trans ?_
  unfold net
  refine congrArg (fun l => softmax l r) (funext fun q => ?_)
  refine (logits_apply (n := 128) _ _ _ _ _ _ _ p q).trans ?_
  refine congrArg (fun z => logits _ _ z q) (funext fun c => ?_)
  refine (hiddenT_apply (n := 128) _ _ _ _ _ _ _ _ p c).trans ?_
  refine congrArg (fun x => hidden _ _ x c) (funext fun j => ?_)
  refine (pairRows2 (a := 256) (r := 128) rfl _ _ _ p j).trans ?_
  refine Eq.trans ?_ (pair_of_flat _ _ x0 p j)
  unfold flat6
  generalize child (n2 := 256) (n := 128) rfl p j = i
  generalize feat j = d
  refine (level3T_apply (a := 512) (r := 256) rfl _ _ _ _ _ _ _ _ _ _ _ i d).trans (up_congr _ _ _ (fun i d' => ?_) i d)
  exact pay2_apply x0 x1 x2 i d'

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- What the body leaves in the output window's buffer, at (p, r). -/
theorem out_apply (p : Fin 128) (r : Fin 7) :
    out0_7 x0 x1 x2 x3 x4 x5 x6 (ix2 p r)
      = net (fun d j => x1 (ix2 j d)) (fun d => x2 (ix1 d)) (fun c j => x3 (ix2 j c)) (fun c => x4 (ix1 c)) (fun r c => x5 (ix2 c r))
          (fun r => x6 (ix1 r)) (fun s l d => x0 (ix4 p s l d)) r := by
  unfold out0_7
  rw [View.canon_unit_zero hz2]
  simp only [View.ld_unit_zero (S := S128x2x64x128) hz4, View.ld_unit_zero (S := S256x128) hz2,
    View.ld_unit_zero (S := S128) hz1, View.ld_unit_zero (S := S128x7) hz2, View.ld_unit_zero (S := S7) hz1]
  exact pay3_apply x0 x1 x2 x3 x4 x5 x6 p r

end Cert.KernelIdeal.Body

end
-- ==== Proof.KernelGather.lean ====
/-
  Gathering rows of a table that already holds the leaf bias.

  The leaves are gathered through a column of index words, one word per leaf: the result at (b, s, l, d) is the table at
  (row, d), the row chosen by the word at (b, s, l) and the column kept (`leaf_col`). So gathering from the table with
  the bias added to every row — and a change of float format, the identity at the exact values — is gathering from the
  table and adding the bias afterwards, which is `TreeNet.leaves` (`gather_biased`). The row itself is never looked at.
-/
import proofs.«173905_j52063593563027_2_alg».proof.Proof.TreeNet
import Idealize.ShloMosaic.Lib.Pipeline.Value
import Idealize.ShloMosaic.Lib.ValueIdx

noncomputable section

namespace Cert.TreeNet

open Idealize.ShloMosaic Idealize.ShloMosaic.ValueIdx

/-- The dimension numbers of the leaf gather: rows of a 10000 × 128 table through an 8192 × 2 × 64 × 1 column of words. -/
abbrev leafDims
    (wf : GatherDims.WF ⟨2, ![10000, 128]⟩ ⟨4, ![8192, 2, 64, 1]⟩ ⟨4, ![8192, 2, 64, 128]⟩ [3] [0] [] [0] [] 3 ![1, 128]) :
    GatherDims ⟨2, ![10000, 128]⟩ ⟨4, ![8192, 2, 64, 1]⟩ ⟨4, ![8192, 2, 64, 128]⟩ where
  offsetDims := [3]
  collapsedSliceDims := [0]
  operandBatchingDims := []
  startIndicesBatchingDims := []
  startIndexMap := [0]
  indexVectorDim := 3
  sliceSizes := ![1, 128]
  wf := wf

/-- An axis is kept exactly when it is not among the removed ones. -/
theorem mem_kept' {s : Shape} (axes : List (Fin s.rank)) (a : Fin s.rank) : a ∈ s.kept axes ↔ a ∉ axes := by
  simp [Shape.kept, List.mem_filter, List.mem_finRange]

/-- The gathered entry (b, s, l, d) is read at column d of the table. -/
theorem leaf_col
    (wf : GatherDims.WF ⟨2, ![10000, 128]⟩ ⟨4, ![8192, 2, 64, 1]⟩ ⟨4, ![8192, 2, 64, 128]⟩ [3] [0] [] [0] [] 3 ![1, 128])
    (idx : IVec ⟨4, ![8192, 2, 64, 1]⟩ 32) (b : Fin 8192) (s : Fin 2) (l : Fin 64) (d : Fin 128) :
    ((leafDims wf).operandIdx (ix4 b s l d) idx 1).val = d.val := by
  show (leafDims wf).start (ix4 b s l d) idx 1 + (leafDims wf).batchCoord (ix4 b s l d) 1
    + (leafDims wf).offCoord (ix4 b s l d) 1 = d.val
  rw [GatherDims.batchCoord_eq_zero _ _ _ List.not_mem_nil]
  have hs : (leafDims wf).start (ix4 b s l d) idx 1 = 0 := by
    unfold GatherDims.start
    rw [dif_neg (show ¬ (1 : Fin 2) ∈ (leafDims wf).startIndexMap from
      fun h => absurd (show (1 : Fin 2) = 0 from List.mem_singleton.mp h) (by decide))]
  rw [hs]
  simp only [Nat.add_zero, Nat.zero_add]
  rfl

/-- Gathering from the table with the bias added to every row is the leaves. -/
theorem gather_biased
    (wf : GatherDims.WF ⟨2, ![10000, 128]⟩ ⟨4, ![8192, 2, 64, 1]⟩ ⟨4, ![8192, 2, 64, 128]⟩ [3] [0] [] [0] [] 3 ![1, 128])
    (idx : IVec ⟨4, ![8192, 2, 64, 1]⟩ 32) (vw : FVec Ideal ⟨2, ![10000, 128]⟩ .f32) (vb : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![10000, 128]⟩ ![0, 1])
    (hlt : FTy.bits .bf16 < FTy.bits .f32) (b : Fin 8192) (s : Fin 2) (l : Fin 64) (d : Fin 128) :
    Host.gather (leafDims wf)
        (truncf .bf16 (addf vw (broadcastInDim ⟨2, ![10000, 128]⟩ ![0, 1] h2 (broadcastInDim ⟨2, ![1, 128]⟩ ![1] h1 vb))) hlt)
        idx (ix4 b s l d)
      = leaves (leafDims wf) idx vw vb b s l d := by
  unfold leaves
  show vw ((leafDims wf).operandIdx (ix4 b s l d) idx)
      + broadcastInDim ⟨2, ![10000, 128]⟩ ![0, 1] h2 (broadcastInDim ⟨2, ![1, 128]⟩ ![1] h1 vb)
          ((leafDims wf).operandIdx (ix4 b s l d) idx)
    = vw ((leafDims wf).operandIdx (ix4 b s l d) idx) + vb (ix1 d)
  refine congrArg (fun x => vw ((leafDims wf).operandIdx (ix4 b s l d) idx) + x) ?_
  refine (broadcastInDim_apply _ h2 _ _ (ix2 (0 : Fin 1) d) fun a => ?_).trans ?_
  · match a with
    | ⟨0, _⟩ => rfl
    | ⟨1, _⟩ =>
      show d.val = if (128 : ℕ) = 1 then 0 else ((leafDims wf).operandIdx (ix4 b s l d) idx 1).val
      rw [if_neg (by decide), leaf_col]
  · refine broadcastInDim_apply _ h1 vb (ix2 (0 : Fin 1) d) (ix1 d) fun a => ?_
    match a with
    | ⟨0, _⟩ =>
      show d.val = if (128 : ℕ) = 1 then 0 else d.val
      rw [if_neg (by decide)]

/-- The network of equal weights, biases and leaves is equal. -/
theorem net_congr {W W' : Fin 128 → Fin 256 → EReal} {cb cb' : Fin 128 → EReal} {Wr Wr' : Fin 128 → Fin 256 → EReal}
    {rb rb' : Fin 128 → EReal} {Ws Ws' : Fin 7 → Fin 128 → EReal} {sb sb' : Fin 7 → EReal}
    {T T' : Fin 2 → Fin 64 → Fin 128 → EReal} (hW : ∀ d j, W d j = W' d j) (hcb : ∀ d, cb d = cb' d)
    (hWr : ∀ c j, Wr c j = Wr' c j) (hrb : ∀ c, rb c = rb' c) (hWs : ∀ r c, Ws r c = Ws' r c) (hsb : ∀ r, sb r = sb' r)
    (hT : ∀ s l d, T s l d = T' s l d) (r : Fin 7) :
    net W cb Wr rb Ws sb T r = net W' cb' Wr' rb' Ws' sb' T' r := by
  have e1 : W = W' := funext fun d => funext fun j => hW d j
  have e2 : cb = cb' := funext hcb
  have e3 : Wr = Wr' := funext fun c => funext fun j => hWr c j
  have e4 : rb = rb' := funext hrb
  have e5 : Ws = Ws' := funext fun r => funext fun c => hWs r c
  have e6 : sb = sb' := funext hsb
  have e7 : T = T' := funext fun s => funext fun l => funext fun d => hT s l d
  rw [e1, e2, e3, e4, e5, e6, e7]

end Cert.TreeNet

end
-- ==== Proof.KernelValue.lean ====
/-
  The kernel's result array as one function of the argument arrays.

  Before the region the host adds the leaf bias to every row of the vocabulary table, gathers the leaves from it through
  the column of wrapped tokens, and transposes the three weight matrices (`V_leaves`, `V_cps`, `V_cpr`, `V_sm`; each also
  changes float format, the identity at the exact values). Grid point t reads entries 128 t … 128 t + 127 of the leaves
  and the whole of every other operand (`blk0` … `blk6`), so what it writes back, row p, is the network of entry 128 t + p:
  block t of `Gk`, which is `TreeNet.G` of the argument arrays (`flushed_eq`). The 64 blocks of 128 rows tile the 8192
  rows (`cover`), so the array ends holding `Gk` (`final`, `run`).
-/
import proofs.«173905_j52063593563027_2_alg».proof.Proof.Gen.KernelIdeal.Value
import proofs.«173905_j52063593563027_2_alg».proof.Proof.KernelBody
import proofs.«173905_j52063593563027_2_alg».proof.Proof.KernelGather
import proofs.«173905_j52063593563027_2_alg».proof.Proof.LibMergeRows
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.TreeNet Cert.Lib
open Idealize.ShloMosaic.Pipeline (Dat)

variable (m : (ℓ : Loc nD τ sig) → Buf (Elt Ideal) ℓ) (ρ : Dev nD → PrngReg)

/-! ## The arrays the region finds -/

/-- The column of row indices the leaves are gathered through: the token, plus 10000 when negative. -/
def idxCol (tok : IVec S8192x2x64 32) : IVec S8192x2x64x1 32 :=
  broadcastInDim S8192x2x64x1 ![0, 1, 2] bcast_S8192x2x64_S8192x2x64x1_0_1_2
    (select (cmpi .slt tok (broadcastInDim S8192x2x64 ![] bcast_S_S8192x2x64 (constantI S_ 32 0#32)))
      (addi tok (broadcastInDim S8192x2x64 ![] bcast_S_S8192x2x64 (constantI S_ 32 10000#32))) tok)

/-- The leaves: gathered from the table that holds the bias. -/
theorem V_leaves (c : Dev nD) : (V m c main_v10 : S8192x2x64x128.Idx → EReal)
    = (Host.gather gather_S10000x128_S8192x2x64x1_S8192x2x64x128_3_0_n_n_0_3_1128
        (truncf (F := Ideal) .bf16 (addf (F := Ideal) (φ := .f32) (m ((c : Thread nD τ).loc main_arg1))
          (broadcastInDim S10000x128 ![0, 1] bcast_S1x128_S10000x128_0_1
            (broadcastInDim S1x128 ![1] bcast_S128_S1x128_1 (m ((c : Thread nD τ).loc main_arg2))))) bitsLt_bf16_f32)
        (idxCol (m ((c : Thread nD τ).loc main_arg0))) : S8192x2x64x128.Idx → EReal) := by
  dsimp only [Gen.V, Gen.hostOps0]; after_results; rfl

/-- The composition weights, transposed. -/
theorem V_cps (c : Dev nD) : (V m c main_v12 : S256x128.Idx → EReal)
    = (truncf (F := Ideal) (φ := .f32) .bf16 (transpose S256x128 [1, 0] (m ((c : Thread nD τ).loc main_arg3)) transposes_S128x256_S256x128_1_0) bitsLt_bf16_f32 :
        S256x128.Idx → EReal) := by
  dsimp only [Gen.V, Gen.hostOps0]; after_results

/-- The hidden layer's weights, transposed. -/
theorem V_cpr (c : Dev nD) : (V m c main_v14 : S256x128.Idx → EReal)
    = (truncf (F := Ideal) (φ := .f32) .bf16 (transpose S256x128 [1, 0] (m ((c : Thread nD τ).loc main_arg5)) transposes_S128x256_S256x128_1_0) bitsLt_bf16_f32 :
        S256x128.Idx → EReal) := by
  dsimp only [Gen.V, Gen.hostOps0]; after_results

/-- The logit weights, transposed. -/
theorem V_sm (c : Dev nD) : (V m c main_v16 : S128x7.Idx → EReal)
    = (truncf (F := Ideal) (φ := .f32) .bf16 (transpose S128x7 [1, 0] (m ((c : Thread nD τ).loc main_arg7)) transposes_S7x128_S128x7_1_0) bitsLt_bf16_f32 :
        S128x7.Idx → EReal) := by
  dsimp only [Gen.V, Gen.hostOps0]; after_results

/-! ## The blocks a grid point reads -/

/-- The printed index maps over the 64 grid points: the leaves' and the result's windows move with the point along the
    entries; every other window stays. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem lt64 (t : Fin cfg0.N) : t.val < 64 := lt_of_lt_of_eq t.isLt N_0

/-- Entry 128 t + p of the batch. -/
abbrev entry (t : Fin cfg0.N) (p : Fin 128) : Fin 8192 :=
  ⟨t.val * 128 + p.val, by have := lt64 t; have := p.isLt; omega⟩

/-- Point t's block of leaves: entries 128 t … 128 t + 127. -/
theorem blk0 (c : Dev nD) (t : Fin cfg0.N) (p : Fin 128) (s : Fin 2) (l : Fin 64) (d : Fin 128) :
    iblk m c 0 t (ix4 p s l d) = V m c main_v10 (ix4 (entry t p) s l d) := by
  obtain ⟨e00, e01, e02, e03, _⟩ := idx_facts t
  show V m c main_v10 (((cfg0.win 0).blk t).view.emb (ix4 p s l d)) = V m c main_v10 (ix4 (entry t p) s l d)
  refine congrArg (V m c main_v10) (funext fun a => Fin.ext ?_)
  match a with
  | ⟨0, _⟩ => show win0_0.index t (0 : Fin 4) * 128 + 1 * p.val = t.val * 128 + p.val; omega
  | ⟨1, _⟩ => show win0_0.index t (1 : Fin 4) * 2 + 1 * s.val = s.val; omega
  | ⟨2, _⟩ => show win0_0.index t (2 : Fin 4) * 64 + 1 * l.val = l.val; omega
  | ⟨3, _⟩ => show win0_0.index t (3 : Fin 4) * 128 + 1 * d.val = d.val; omega

/-- Every other operand's block is the whole operand. -/
theorem blk1 (c : Dev nD) (t : Fin cfg0.N) (y : S256x128.Idx) : iblk m c 1 t y = V m c main_v12 y := by
  obtain ⟨_, _, _, _, e10, e11, e20, e30, e31, e40, e50, e51, e60, _, _⟩ := idx_facts t
  show V m c main_v12 (((cfg0.win 1).blk t).view.emb y) = V m c main_v12 y
  refine congrArg (V m c main_v12) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

theorem blk2 (c : Dev nD) (t : Fin cfg0.N) (y : S128.Idx) : iblk m c 2 t y = V m c main_arg4 y := by
  obtain ⟨_, _, _, _, e10, e11, e20, e30, e31, e40, e50, e51, e60, _, _⟩ := idx_facts t
  show V m c main_arg4 (((cfg0.win 2).blk t).view.emb y) = V m c main_arg4 y
  refine congrArg (V m c main_arg4) (funext fun a => Fin.ext ?_)
  match a with
  | ⟨0, _⟩ => show win0_2.index t (0 : Fin 1) * 128 + 1 * (y 0).val = (y 0).val; omega

theorem blk3 (c : Dev nD) (t : Fin cfg0.N) (y : S256x128.Idx) : iblk m c 3 t y = V m c main_v14 y := by
  obtain ⟨_, _, _, _, e10, e11, e20, e30, e31, e40, e50, e51, e60, _, _⟩ := idx_facts t
  show V m c main_v14 (((cfg0.win 3).blk t).view.emb y) = V m c main_v14 y
  refine congrArg (V m c main_v14) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem blk4 (c : Dev nD) (t : Fin cfg0.N) (y : S128.Idx) : iblk m c 4 t y = V m c main_arg6 y := by
  obtain ⟨_, _, _, _, e10, e11, e20, e30, e31, e40, e50, e51, e60, _, _⟩ := idx_facts t
  show V m c main_arg6 (((cfg0.win 4).blk t).view.emb y) = V m c main_arg6 y
  refine congrArg (V m c main_arg6) (funext fun a => Fin.ext ?_)
  match a with
  | ⟨0, _⟩ => show win0_4.index t (0 : Fin 1) * 128 + 1 * (y 0).val = (y 0).val; omega

theorem blk5 (c : Dev nD) (t : Fin cfg0.N) (y : S128x7.Idx) : iblk m c 5 t y = V m c main_v16 y := by
  obtain ⟨_, _, _, _, e10, e11, e20, e30, e31, e40, e50, e51, e60, _, _⟩ := idx_facts t
  show V m c main_v16 (((cfg0.win 5).blk t).view.emb y) = V m c main_v16 y
  refine congrArg (V m c main_v16) (funext fun a => Fin.ext ?_)
  match a with
  | ⟨0, _⟩ => show win0_5.index t (0 : Fin 2) * 128 + 1 * (y 0).val = (y 0).val; omega
  | ⟨1, _⟩ => show win0_5.index t (1 : Fin 2) * 7 + 1 * (y 1).val = (y 1).val; omega

theorem blk6 (c : Dev nD) (t : Fin cfg0.N) (y : S7.Idx) : iblk m c 6 t y = V m c main_arg8 y := by
  obtain ⟨_, _, _, _, e10, e11, e20, e30, e31, e40, e50, e51, e60, _, _⟩ := idx_facts t
  show V m c main_arg8 (((cfg0.win 6).blk t).view.emb y) = V m c main_arg8 y
  refine congrArg (V m c main_arg8) (funext fun a => Fin.ext ?_)
  match a with
  | ⟨0, _⟩ => show win0_6.index t (0 : Fin 1) * 7 + 1 * (y 0).val = (y 0).val; omega

/-! ## What a grid point writes back -/

/-- The result array: `TreeNet.G` of the argument arrays. -/
def Gk (c : Dev nD) : S8192x7.Idx → EReal :=
  TreeNet.G gather_S10000x128_S8192x2x64x1_S8192x2x64x128_3_0_n_n_0_3_1128 (idxCol (m ((c : Thread nD τ).loc main_arg0)))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- Row p of what point t leaves in the output window's buffer is row 128 t + p of the result array. -/
theorem point_eq (c : Dev nD) (t : Fin cfg0.N) (p : Fin 128) (r : Fin 7) :
    out0_7 (iblk m c 0 t) (iblk m c 1 t) (iblk m c 2 t) (iblk m c 3 t) (iblk m c 4 t) (iblk m c 5 t) (iblk m c 6 t) (ix2 p r)
      = Gk m c (ix2 (entry t p) r) := by
  refine (Body.out_apply (iblk m c 0 t) (iblk m c 1 t) (iblk m c 2 t) (iblk m c 3 t) (iblk m c 4 t) (iblk m c 5 t)
    (iblk m c 6 t) p r).trans ?_
  unfold Gk TreeNet.G
  refine net_congr (fun d j => ?_) (fun d => ?_) (fun c' j => ?_) (fun c' => ?_) (fun r' c' => ?_) (fun r' => ?_)
    (fun s l d => ?_) r
  · refine (blk1 m c t (ix2 j d)).trans ?_
    rw [V_cps]
    exact MergeRows.transpose_apply _ _ j d
  · exact (blk2 m c t (ix1 d)).trans (congrFun (V_main_arg4 m c) (ix1 d))
  · refine (blk3 m c t (ix2 j c')).trans ?_
    rw [V_cpr]
    exact MergeRows.transpose_apply _ _ j c'
  · exact (blk4 m c t (ix1 c')).trans (congrFun (V_main_arg6 m c) (ix1 c'))
  · refine (blk5 m c t (ix2 c' r')).trans ?_
    rw [V_sm]
    exact MergeRows.transpose_apply _ _ c' r'
  · exact (blk6 m c t (ix1 r')).trans (congrFun (V_main_arg8 m c) (ix1 r'))
  · refine (blk0 m c t p s l d).trans ?_
    rw [V_leaves]
    exact gather_biased gather_S10000x128_S8192x2x64x1_S8192x2x64x128_3_0_n_n_0_3_1128_wf _ _ _ _ _ _ (entry t p) s l d

/-- WHAT POINT t WRITES BACK is block t of the result array. -/
theorem flushed_eq (c : Dev nD) (t : Fin cfg0.N) :
    (dats m 0 c).flushed 7 t = ((cfg0.win 7).blk t).view.read (Elt Ideal) (Gk m c) := by
  rw [Value.flushed7]
  obtain ⟨_, _, _, _, _, _, _, _, _, _, _, _, _, e70, e71⟩ := idx_facts t
  funext y
  show out0_7 (iblk m c 0 t) (iblk m c 1 t) (iblk m c 2 t) (iblk m c 3 t) (iblk m c 4 t) (iblk m c 5 t) (iblk m c 6 t) y
    = Gk m c (((cfg0.win 7).blk t).view.emb y)
  have hy : y = ix2 (⟨(y 0).val, (y 0).isLt⟩ : Fin 128) (⟨(y 1).val, (y 1).isLt⟩ : Fin 7) :=
    funext fun a => by match a with | ⟨0, _⟩ => rfl | ⟨1, _⟩ => rfl
  have hemb : ((cfg0.win 7).blk t).view.emb y
      = ix2 (entry t (⟨(y 0).val, (y 0).isLt⟩ : Fin 128)) (⟨(y 1).val, (y 1).isLt⟩ : Fin 7) :=
    funext fun a => Fin.ext (by
      match a with
      | ⟨0, _⟩ => show win0_7.index t (0 : Fin 2) * 128 + 1 * (y 0).val = t.val * 128 + (y 0).val; omega
      | ⟨1, _⟩ => show win0_7.index t (1 : Fin 2) * 7 + 1 * (y 1).val = (y 1).val; omega)
  rw [hemb]
  exact (congrArg _ hy).trans (point_eq m c t _ _)

/-! ## The whole array -/

/-- An index of the array is in point t's block iff each coordinate is in the block's range on its axis. -/
theorem mem_blk (t : Fin cfg0.N) (i : S8192x7.Idx) :
    i ∈ ((cfg0.win 7).blk t).view.set ↔ ∀ a : Fin 2, win0_7.index t a * S128x7.size a ≤ (i a).val
      ∧ (i a).val < win0_7.index t a * S128x7.size a + S128x7.size a := by
  show i ∈ ((View.whole main_v17).slice (win0_7.rect t)).set ↔ _
  rw [View.set_slice_whole, Rect.mem_set_unit]
  exact Iff.rfl

/-- Row b of the array is in the block of point b / 128. -/
theorem cover (i : S8192x7.Idx) :
    ∃ t : Fin cfg0.N, (cfg0.win 7).flush t = true ∧ i ∈ ((cfg0.win 7).blk t).view.set := by
  have hi0 : (i 0).val < 8192 := (i 0).isLt
  have hi1 : (i 1).val < 7 := (i 1).isLt
  have hN : (i 0).val / 128 < cfg0.N := by show _ < grid0.N; rw [N_0]; omega
  obtain ⟨_, _, _, _, _, _, _, _, _, _, _, _, _, e70, e71⟩ := idx_facts ⟨(i 0).val / 128, hN⟩
  refine ⟨⟨(i 0).val / 128, hN⟩, flush0_7 _, ?_⟩
  rw [mem_blk]
  intro a
  match a with
  | ⟨0, _⟩ =>
    show win0_7.index ⟨(i 0).val / 128, hN⟩ (0 : Fin 2) * 128 ≤ (i 0).val
      ∧ (i 0).val < win0_7.index ⟨(i 0).val / 128, hN⟩ (0 : Fin 2) * 128 + 128
    rw [e70]
    show (i 0).val / 128 * 128 ≤ (i 0).val ∧ (i 0).val < (i 0).val / 128 * 128 + 128
    omega
  | ⟨1, _⟩ =>
    show win0_7.index ⟨(i 0).val / 128, hN⟩ (1 : Fin 2) * 7 ≤ (i 1).val
      ∧ (i 1).val < win0_7.index ⟨(i 0).val / 128, hN⟩ (1 : Fin 2) * 7 + 7
    rw [e71]
    omega

/-- THE ARRAY after the run. -/
theorem final (c : Dev nD) : (dats m 0 c).arrAt 7 cfg0.N = Gk m c :=
  (dats m 0 c).arrAt_eq_of_cover 7 (Gk m c) (fun t _ => flushed_eq m c t) cover

/-- The run: the result array at `TreeNet.G` of the argument arrays, the arguments unchanged. -/
theorem run : θ_run defs (onTc (τ := τ) (main (F := Ideal))) ⟨m, fun _ => 0, ρ⟩ fun r => ∀ c : Dev nD,
      r.2.mem ((c : Thread nD τ).loc main_v17) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefStages.lean ====
/-
  The reference network as one term of its nine argument arrays, stage by stage.

  Each definition is one stage of the reference's straight line of array operations, taking the previous stage's
  array: the gathered leaves plus their bias; six composition levels; the two roots of an entry side by side; the
  hidden layer before and after its rectifier; the logits; the exponentials of the logits less their row maximum;
  and the quotient by the row sums. Their composition is the array the reference leaves in its result.
-/
import proofs.«173905_j52063593563027_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The column of row indices the reference gathers through: the token, plus 10000 when negative, as an
    [8192, 2, 64, 1] column. -/
def idxCol (tok : IVec S8192x2x64 32) : IVec S8192x2x64x1 32 :=
  broadcastInDim S8192x2x64x1 ![0, 1, 2] bcast_S8192x2x64_S8192x2x64x1_0_1_2
    (select (cmpi .slt tok (broadcastInDim S8192x2x64 ![] bcast_S_S8192x2x64 (constantI S_ 32 0#32)))
      (addi tok (broadcastInDim S8192x2x64 ![] bcast_S_S8192x2x64 (constantI S_ 32 10000#32))) tok)

/-- The leaves: the vocabulary rows gathered through the index column, plus the leaf bias along the last axis. -/
def leafArr (tok : IVec S8192x2x64 32) (vw : FVec F S10000x128 .f32) (vb : FVec F S128 .f32) :
    FVec F S8192x2x64x128 .f32 :=
  addf (Host.gather gather_S10000x128_S8192x2x64x1_S8192x2x64x128_3_0_n_n_0_3_1128 vw (idxCol tok))
    (broadcastInDim S8192x2x64x128 ![0, 1, 2, 3] bcast_S1x1x1x128_S8192x2x64x128_0_1_2_3
      (broadcastInDim S1x1x1x128 ![3] bcast_S128_S1x1x1x128_3 vb))

/-- One composition level over the whole batch: the [8192, 2, 64, 128] array regrouped as [8192, 2, 32, 256]
    (adjacent nodes side by side), contracted with the composition weights, plus the bias, through tanh. -/
def lvl32 (cw : FVec F S128x256 .f32) (cb : FVec F S128 .f32) (h : FVec F S8192x2x64x128 .f32) :
    FVec F S8192x2x32x128 .f32 :=
  Host.tanh (addf
    (Host.dotGeneral dot_S8192x2x32x256_S128x256_S8192x2x32x128_3_1_012_0_n_n none
      (shapeCast S8192x2x32x256 h shapeCasts_S8192x2x64x128_S8192x2x32x256) cw)
    (broadcastInDim S8192x2x32x128 ![0, 1, 2, 3] bcast_S1x1x1x128_S8192x2x32x128_0_1_2_3
      (broadcastInDim S1x1x1x128 ![3] bcast_S128_S1x1x1x128_3 cb)))

/-- One composition level over the whole batch: the [8192, 2, 32, 128] array regrouped as [8192, 2, 16, 256]
    (adjacent nodes side by side), contracted with the composition weights, plus the bias, through tanh. -/
def lvl16 (cw : FVec F S128x256 .f32) (cb : FVec F S128 .f32) (h : FVec F S8192x2x32x128 .f32) :
    FVec F S8192x2x16x128 .f32 :=
  Host.tanh (addf
    (Host.dotGeneral dot_S8192x2x16x256_S128x256_S8192x2x16x128_3_1_012_0_n_n none
      (shapeCast S8192x2x16x256 h shapeCasts_S8192x2x32x128_S8192x2x16x256) cw)
    (broadcastInDim S8192x2x16x128 ![0, 1, 2, 3] bcast_S1x1x1x128_S8192x2x16x128_0_1_2_3
      (broadcastInDim S1x1x1x128 ![3] bcast_S128_S1x1x1x128_3 cb)))

/-- One composition level over the whole batch: the [8192, 2, 16, 128] array regrouped as [8192, 2, 8, 256]
    (adjacent nodes side by side), contracted with the composition weights, plus the bias, through tanh. -/
def lvl8 (cw : FVec F S128x256 .f32) (cb : FVec F S128 .f32) (h : FVec F S8192x2x16x128 .f32) :
    FVec F S8192x2x8x128 .f32 :=
  Host.tanh (addf
    (Host.dotGeneral dot_S8192x2x8x256_S128x256_S8192x2x8x128_3_1_012_0_n_n none
      (shapeCast S8192x2x8x256 h shapeCasts_S8192x2x16x128_S8192x2x8x256) cw)
    (broadcastInDim S8192x2x8x128 ![0, 1, 2, 3] bcast_S1x1x1x128_S8192x2x8x128_0_1_2_3
      (broadcastInDim S1x1x1x128 ![3] bcast_S128_S1x1x1x128_3 cb)))

/-- One composition level over the whole batch: the [8192, 2, 8, 128] array regrouped as [8192, 2, 4, 256]
    (adjacent nodes side by side), contracted with the composition weights, plus the bias, through tanh. -/
def lvl4 (cw : FVec F S128x256 .f32) (cb : FVec F S128 .f32) (h : FVec F S8192x2x8x128 .f32) :
    FVec F S8192x2x4x128 .f32 :=
  Host.tanh (addf
    (Host.dotGeneral dot_S8192x2x4x256_S128x256_S8192x2x4x128_3_1_012_0_n_n none
      (shapeCast S8192x2x4x256 h shapeCasts_S8192x2x8x128_S8192x2x4x256) cw)
    (broadcastInDim S8192x2x4x128 ![0, 1, 2, 3] bcast_S1x1x1x128_S8192x2x4x128_0_1_2_3
      (broadcastInDim S1x1x1x128 ![3] bcast_S128_S1x1x1x128_3 cb)))

/-- One composition level over the whole batch: the [8192, 2, 4, 128] array regrouped as [8192, 2, 2, 256]
    (adjacent nodes side by side), contracted with the composition weights, plus the bias, through tanh. -/
def lvl2 (cw : FVec F S128x256 .f32) (cb : FVec F S128 .f32) (h : FVec F S8192x2x4x128 .f32) :
    FVec F S8192x2x2x128 .f32 :=
  Host.tanh (addf
    (Host.dotGeneral dot_S8192x2x2x256_S128x256_S8192x2x2x128_3_1_012_0_n_n none
      (shapeCast S8192x2x2x256 h shapeCasts_S8192x2x4x128_S8192x2x2x256) cw)
    (broadcastInDim S8192x2x2x128 ![0, 1, 2, 3] bcast_S1x1x1x128_S8192x2x2x128_0_1_2_3
      (broadcastInDim S1x1x1x128 ![3] bcast_S128_S1x1x1x128_3 cb)))

/-- One composition level over the whole batch: the [8192, 2, 2, 128] array regrouped as [8192, 2, 1, 256]
    (adjacent nodes side by side), contracted with the composition weights, plus the bias, through tanh. -/
def lvl1 (cw : FVec F S128x256 .f32) (cb : FVec F S128 .f32) (h : FVec F S8192x2x2x128 .f32) :
    FVec F S8192x2x1x128 .f32 :=
  Host.tanh (addf
    (Host.dotGeneral dot_S8192x2x1x256_S128x256_S8192x2x1x128_3_1_012_0_n_n none
      (shapeCast S8192x2x1x256 h shapeCasts_S8192x2x2x128_S8192x2x1x256) cw)
    (broadcastInDim S8192x2x1x128 ![0, 1, 2, 3] bcast_S1x1x1x128_S8192x2x1x128_0_1_2_3
      (broadcastInDim S1x1x1x128 ![3] bcast_S128_S1x1x1x128_3 cb)))

/-- The two roots of each entry side by side: [8192, 2, 1, 128] regrouped as [8192, 256]. -/
def rootArr (h : FVec F S8192x2x1x128 .f32) : FVec F S8192x256 .f32 :=
  shapeCast S8192x256 h shapeCasts_S8192x2x1x128_S8192x256

/-- The hidden layer before its rectifier: the product with the transposed weights, plus the bias along the rows. -/
def preArr (rw : FVec F S128x256 .f32) (rb : FVec F S128 .f32) (x : FVec F S8192x256 .f32) : FVec F S8192x128 .f32 :=
  addf (Host.dotGeneral dot_S8192x256_S256x128_S8192x128_1_0_0_1_n_n none x
      (transpose S256x128 [1, 0] rw transposes_S128x256_S256x128_1_0))
    (broadcastInDim S8192x128 ![0, 1] bcast_S1x128_S8192x128_0_1 (broadcastInDim S1x128 ![1] bcast_S128_S1x128_1 rb))

/-- The rectifier: z where z ≥ 0, the slope word times z elsewhere. -/
def rectArr (z : FVec F S8192x128 .f32) : FVec F S8192x128 .f32 :=
  select (cmpf .oge z (broadcastInDim S8192x128 ![] bcast_S_S8192x128 (constant S_ .f32 0x00000000#32))) z
    (mulf (broadcastInDim S8192x128 ![] bcast_S_S8192x128 (constant S_ .f32 0x3C23D70A#32)) z)

/-- The logits: the product with the transposed weights, plus the bias along the rows. -/
def logitArr (sw : FVec F S7x128 .f32) (sb : FVec F S7 .f32) (z : FVec F S8192x128 .f32) : FVec F S8192x7 .f32 :=
  addf (Host.dotGeneral dot_S8192x128_S128x7_S8192x7_1_0_0_1_n_n none z
      (transpose S128x7 [1, 0] sw transposes_S7x128_S128x7_1_0))
    (broadcastInDim S8192x7 ![0, 1] bcast_S1x7_S8192x7_0_1 (broadcastInDim S1x7 ![1] bcast_S7_S1x7_1 sb))

/-- The row maxima as the reference takes them: the fold of max over each row from the -inf word, then max with
    the -inf word once more. -/
def maxArr (l : FVec F S8192x7 .f32) : FVec F S8192 .f32 :=
  maximumf (broadcastInDim S8192 ![] bcast_S_S8192 (constant S_ .f32 0xFF800000#32))
    (Host.reduce FloatOps.maximumf l (constant S_ .f32 0xFF800000#32) reducesTo_S8192x7_S8192_d1 h_S_)

/-- The exponentials of the logits less their row maximum. -/
def expArr (l : FVec F S8192x7 .f32) : FVec F S8192x7 .f32 :=
  Host.exp (subf l
    (broadcastInDim S8192x7 ![0, 1] bcast_S8192x1_S8192x7_0_1 (broadcastInDim S8192x1 ![0] bcast_S8192_S8192x1_0 (maxArr l))))

/-- Each entry over its row's sum (taken from the zero word). -/
def softArr (e : FVec F S8192x7 .f32) : FVec F S8192x7 .f32 :=
  Host.divf e
    (broadcastInDim S8192x7 ![0, 1] bcast_S8192x1_S8192x7_0_1 (broadcastInDim S8192x1 ![0] bcast_S8192_S8192x1_0
      (Host.reduceAdd e (constant S_ .f32 0x00000000#32) reducesTo_S8192x7_S8192_d1 h_S_)))

/-- The root level of every tree, from the leaves: the six levels in order. -/
def topArr (cw : FVec F S128x256 .f32) (cb : FVec F S128 .f32) (h : FVec F S8192x2x64x128 .f32) : FVec F S8192x2x1x128 .f32 :=
  lvl1 cw cb (lvl2 cw cb (lvl4 cw cb (lvl8 cw cb (lvl16 cw cb (lvl32 cw cb h)))))

/-- The reference's result as one term of its nine arguments. -/
def refOut (tok : IVec S8192x2x64 32) (vw : FVec F S10000x128 .f32) (vb : FVec F S128 .f32) (cw : FVec F S128x256 .f32)
    (cb : FVec F S128 .f32) (rw : FVec F S128x256 .f32) (rb : FVec F S128 .f32) (sw : FVec F S7x128 .f32)
    (sb : FVec F S7 .f32) : FVec F S8192x7 .f32 :=
  softArr (expArr (logitArr sw sb (rectArr (preArr rw rb (rootArr (topArr cw cb (leafArr tok vw vb)))))))

end Cert.ReferenceIdeal.RefValue

end
-- ==== Proof.RefRun.lean ====
/-
  The reference's run.

  The reference program is a straight line of eighty array operations: its own, with the seven operations of the
  rectifier's function and of the selection it calls written in place of the call, over that call's buffers. Run from any
  memory with zero counters it terminates, and each buffer then holds the fold of the operations' results over the
  launch contents. At the result buffer that fold is the composition of the stages (the named term of the nine
  arguments); at each argument buffer it is what was there, since no operation writes an argument.
-/
import proofs.«173905_j52063593563027_2_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's eighty operations, in order, the rectifier's seven in place of its call. -/
abbrev ops : List (HloOp τ sig (Elt F)) :=
  [ StableHlo.nullary main_c (constantI S_ 32 0#32),
    StableHlo.unary main_c main_v0 (broadcastInDim S8192x2x64 ![] bcast_S_S8192x2x64 : (⟨S_, .i32⟩ : BufTy).Contents (Elt F) → (⟨S8192x2x64, .i32⟩ : BufTy).Contents (Elt F)),
    StableHlo.binary main_arg0 main_v0 main_v1 (cmpi .slt : (⟨S8192x2x64, .i32⟩ : BufTy).Contents (Elt F) → (⟨S8192x2x64, .i32⟩ : BufTy).Contents (Elt F) → (⟨S8192x2x64, .i1⟩ : BufTy).Contents (Elt F)),
    StableHlo.nullary main_c_0 (constantI S_ 32 10000#32),
    StableHlo.unary main_c_0 main_v2 (broadcastInDim S8192x2x64 ![] bcast_S_S8192x2x64 : (⟨S_, .i32⟩ : BufTy).Contents (Elt F) → (⟨S8192x2x64, .i32⟩ : BufTy).Contents (Elt F)),
    StableHlo.binary main_arg0 main_v2 main_v3 (addi : (⟨S8192x2x64, .i32⟩ : BufTy).Contents (Elt F) → (⟨S8192x2x64, .i32⟩ : BufTy).Contents (Elt F) → (⟨S8192x2x64, .i32⟩ : BufTy).Contents (Elt F)),
    StableHlo.ternary main_v1 main_v3 main_arg0 main_v4 (select : (⟨S8192x2x64, .i1⟩ : BufTy).Contents (Elt F) → (⟨S8192x2x64, .i32⟩ : BufTy).Contents (Elt F) → (⟨S8192x2x64, .i32⟩ : BufTy).Contents (Elt F) → (⟨S8192x2x64, .i32⟩ : BufTy).Contents (Elt F)),
    StableHlo.unary main_v4 main_v5 (broadcastInDim S8192x2x64x1 ![0, 1, 2] bcast_S8192x2x64_S8192x2x64x1_0_1_2 : (⟨S8192x2x64, .i32⟩ : BufTy).Contents (Elt F) → (⟨S8192x2x64x1, .i32⟩ : BufTy).Contents (Elt F)),
    StableHlo.binary main_arg1 main_v5 main_v6 ((fun x i => Host.gather gather_S10000x128_S8192x2x64x1_S8192x2x64x128_3_0_n_n_0_3_1128 x i) : (⟨S10000x128, .f32⟩ : BufTy).Contents (Elt F) → (⟨S8192x2x64x1, .i32⟩ : BufTy).Contents (Elt F) → (⟨S8192x2x64x128, .f32⟩ : BufTy).Contents (Elt F)),
    StableHlo.unary main_arg2 main_v7 (broadcastInDim S1x1x1x128 ![3] bcast_S128_S1x1x1x128_3 : (⟨S128, .f32⟩ : BufTy).Contents (Elt F) → (⟨S1x1x1x128, .f32⟩ : BufTy).Contents (Elt F)),
    StableHlo.unary main_v7 main_v8 (broadcastInDim S8192x2x64x128 ![0, 1, 2, 3] bcast_S1x1x1x128_S8192x2x64x128_0_1_2_3 : (⟨S1x1x1x128, .f32⟩ : BufTy).Contents (Elt F) → (⟨S8192x2x64x128, .f32⟩ : BufTy).Contents (Elt F)),
    StableHlo.binary main_v6 main_v8 main_v9 (addf : (⟨S8192x2x64x128, .f32⟩ : BufTy).Contents (Elt F) → (⟨S8192x2x64x128, .f32⟩ : BufTy).Contents (Elt F) → (⟨S8192x2x64x128, .f32⟩ : BufTy).Contents (Elt F)),
    StableHlo.reshape main_v9 main_v10 rfl shapeCasts_S8192x2x64x128_S8192x2x32x256,
    StableHlo.binary main_v10 main_arg3 main_v11 ((fun l r => Host.dotGeneral dot_S8192x2x32x256_S128x256_S8192x2x32x128_3_1_012_0_n_n none l r) : (⟨S8192x2x32x256, .f32⟩ : BufTy).Contents (Elt F) → (⟨S128x256, .f32⟩ : BufTy).Contents (Elt F) → (⟨S8192x2x32x128, .f32⟩ : BufTy).Contents (Elt F)),
    StableHlo.unary main_arg4 main_v12 (broadcastInDim S1x1x1x128 ![3] bcast_S128_S1x1x1x128_3 : (⟨S128, .f32⟩ : BufTy).Contents (Elt F) → (⟨S1x1x1x128, .f32⟩ : BufTy).Contents (Elt F)),
    StableHlo.unary main_v12 main_v13 (broadcastInDim S8192x2x32x128 ![0, 1, 2, 3] bcast_S1x1x1x128_S8192x2x32x128_0_1_2_3 : (⟨S1x1x1x128, .f32⟩ : BufTy).Contents (Elt F) → (⟨S8192x2x32x128, .f32⟩ : BufTy).Contents (Elt F)),
    StableHlo.binary main_v11 main_v13 main_v14 (addf : (⟨S8192x2x32x128, .f32⟩ : BufTy).Contents (Elt F) → (⟨S8192x2x32x128, .f32⟩ : BufTy).Contents (Elt F) → (⟨S8192x2x32x128, .f32⟩ : BufTy).Contents (Elt F)),
    StableHlo.unary main_v14 main_v15 (Host.tanh : (⟨S8192x2x32x128, .f32⟩ : BufTy).Contents (Elt F) → (⟨S8192x2x32x128, .f32⟩ : BufTy).Contents (Elt F)),
    StableHlo.reshape main_v15 main_v16 rfl shapeCasts_S8192x2x32x128_S8192x2x16x256,
    StableHlo.binary main_v16 main_arg3 main_v17 ((fun l r => Host.dotGeneral dot_S8192x2x16x256_S128x256_S8192x2x16x128_3_1_012_0_n_n none l r) : (⟨S8192x2x16x256, .f32⟩ : BufTy).Contents (Elt F) → (⟨S128x256, .f32⟩ : BufTy).Contents (Elt F) → (⟨S8192x2x16x128, .f32⟩ : BufTy).Contents (Elt F)),
    StableHlo.unary main_arg4 main_v18 (broadcastInDim S1x1x1x128 ![3] bcast_S128_S1x1x1x128_3 : (⟨S128, .f32⟩ : BufTy).Contents (Elt F) → (⟨S1x1x1x128, .f32⟩ : BufTy).Contents (Elt F)),
    StableHlo.unary main_v18 main_v19 (broadcastInDim S8192x2x16x128 ![0, 1, 2, 3] bcast_S1x1x1x128_S8192x2x16x128_0_1_2_3 : (⟨S1x1x1x128, .f32⟩ : BufTy).Contents (Elt F) → (⟨S8192x2x16x128, .f32⟩ : BufTy).Contents (Elt F)),
    StableHlo.binary main_v17 main_v19 main_v20 (addf : (⟨S8192x2x16x128, .f32⟩ : BufTy).Contents (Elt F) → (⟨S8192x2x16x128, .f32⟩ : BufTy).Contents (Elt F) → (⟨S8192x2x16x128, .f32⟩ : BufTy).Contents (Elt F)),
    StableHlo.unary main_v20 main_v21 (Host.tanh : (⟨S8192x2x16x128, .f32⟩ : BufTy).Contents (Elt F) → (⟨S8192x2x16x128, .f32⟩ : BufTy).Contents (Elt F)),
    StableHlo.reshape main_v21 main_v22 rfl shapeCasts_S8192x2x16x128_S8192x2x8x256,
    StableHlo.binary main_v22 main_arg3 main_v23 ((fun l r => Host.dotGeneral dot_S8192x2x8x256_S128x256_S8192x2x8x128_3_1_012_0_n_n none l r) : (⟨S8192x2x8x256, .f32⟩ : BufTy).Contents (Elt F) → (⟨S128x256, .f32⟩ : BufTy).Contents (Elt F) → (⟨S8192x2x8x128, .f32⟩ : BufTy).Contents (Elt F)),
    StableHlo.unary main_arg4 main_v24 (broadcastInDim S1x1x1x128 ![3] bcast_S128_S1x1x1x128_3 : (⟨S128, .f32⟩ : BufTy).Contents (Elt F) → (⟨S1x1x1x128, .f32⟩ : BufTy).Contents (Elt F)),
    StableHlo.unary main_v24 main_v25 (broadcastInDim S8192x2x8x128 ![0, 1, 2, 3] bcast_S1x1x1x128_S8192x2x8x128_0_1_2_3 : (⟨S1x1x1x128, .f32⟩ : BufTy).Contents (Elt F) → (⟨S8192x2x8x128, .f32⟩ : BufTy).Contents (Elt F)),
    StableHlo.binary main_v23 main_v25 main_v26 (addf : (⟨S8192x2x8x128, .f32⟩ : BufTy).Contents (Elt F) → (⟨S8192x2x8x128, .f32⟩ : BufTy).Contents (Elt F) → (⟨S8192x2x8x128, .f32⟩ : BufTy).Contents (Elt F)),
    StableHlo.unary main_v26 main_v27 (Host.tanh : (⟨S8192x2x8x128, .f32⟩ : BufTy).Contents (Elt F) → (⟨S8192x2x8x128, .f32⟩ : BufTy).Contents (Elt F)),
    StableHlo.reshape main_v27 main_v28 rfl shapeCasts_S8192x2x8x128_S8192x2x4x256,
    StableHlo.binary main_v28 main_arg3 main_v29 ((fun l r => Host.dotGeneral dot_S8192x2x4x256_S128x256_S8192x2x4x128_3_1_012_0_n_n none l r) : (⟨S8192x2x4x256, .f32⟩ : BufTy).Contents (Elt F) → (⟨S128x256, .f32⟩ : BufTy).Contents (Elt F) → (⟨S8192x2x4x128, .f32⟩ : BufTy).Contents (Elt F)),
    StableHlo.unary main_arg4 main_v30 (broadcastInDim S1x1x1x128 ![3] bcast_S128_S1x1x1x128_3 : (⟨S128, .f32⟩ : BufTy).Contents (Elt F) → (⟨S1x1x1x128, .f32⟩ : BufTy).Contents (Elt F)),
    StableHlo.unary main_v30 main_v31 (broadcastInDim S8192x2x4x128 ![0, 1, 2, 3] bcast_S1x1x1x128_S8192x2x4x128_0_1_2_3 : (⟨S1x1x1x128, .f32⟩ : BufTy).Contents (Elt F) → (⟨S8192x2x4x128, .f32⟩ : BufTy).Contents (Elt F)),
    StableHlo.binary main_v29 main_v31 main_v32 (addf : (⟨S8192x2x4x128, .f32⟩ : BufTy).Contents (Elt F) → (⟨S8192x2x4x128, .f32⟩ : BufTy).Contents (Elt F) → (⟨S8192x2x4x128, .f32⟩ : BufTy).Contents (Elt F)),
    StableHlo.unary main_v32 main_v33 (Host.tanh : (⟨S8192x2x4x128, .f32⟩ : BufTy).Contents (Elt F) → (⟨S8192x2x4x128, .f32⟩ : BufTy).Contents (Elt F)),
    StableHlo.reshape main_v33 main_v34 rfl shapeCasts_S8192x2x4x128_S8192x2x2x256,
    StableHlo.binary main_v34 main_arg3 main_v35 ((fun l r => Host.dotGeneral dot_S8192x2x2x256_S128x256_S8192x2x2x128_3_1_012_0_n_n none l r) : (⟨S8192x2x2x256, .f32⟩ : BufTy).Contents (Elt F) → (⟨S128x256, .f32⟩ : BufTy).Contents (Elt F) → (⟨S8192x2x2x128, .f32⟩ : BufTy).Contents (Elt F)),
    StableHlo.unary main_arg4 main_v36 (broadcastInDim S1x1x1x128 ![3] bcast_S128_S1x1x1x128_3 : (⟨S128, .f32⟩ : BufTy).Contents (Elt F) → (⟨S1x1x1x128, .f32⟩ : BufTy).Contents (Elt F)),
    StableHlo.unary main_v36 main_v37 (broadcastInDim S8192x2x2x128 ![0, 1, 2, 3] bcast_S1x1x1x128_S8192x2x2x128_0_1_2_3 : (⟨S1x1x1x128, .f32⟩ : BufTy).Contents (Elt F) → (⟨S8192x2x2x128, .f32⟩ : BufTy).Contents (Elt F)),
    StableHlo.binary main_v35 main_v37 main_v38 (addf : (⟨S8192x2x2x128, .f32⟩ : BufTy).Contents (Elt F) → (⟨S8192x2x2x128, .f32⟩ : BufTy).Contents (Elt F) → (⟨S8192x2x2x128, .f32⟩ : BufTy).Contents (Elt F)),
    StableHlo.unary main_v38 main_v39 (Host.tanh : (⟨S8192x2x2x128, .f32⟩ : BufTy).Contents (Elt F) → (⟨S8192x2x2x128, .f32⟩ : BufTy).Contents (Elt F)),
    StableHlo.reshape main_v39 main_v40 rfl shapeCasts_S8192x2x2x128_S8192x2x1x256,
    StableHlo.binary main_v40 main_arg3 main_v41 ((fun l r => Host.dotGeneral dot_S8192x2x1x256_S128x256_S8192x2x1x128_3_1_012_0_n_n none l r) : (⟨S8192x2x1x256, .f32⟩ : BufTy).Contents (Elt F) → (⟨S128x256, .f32⟩ : BufTy).Contents (Elt F) → (⟨S8192x2x1x128, .f32⟩ : BufTy).Contents (Elt F)),
    StableHlo.unary main_arg4 main_v42 (broadcastInDim S1x1x1x128 ![3] bcast_S128_S1x1x1x128_3 : (⟨S128, .f32⟩ : BufTy).Contents (Elt F) → (⟨S1x1x1x128, .f32⟩ : BufTy).Contents (Elt F)),
    StableHlo.unary main_v42 main_v43 (broadcastInDim S8192x2x1x128 ![0, 1, 2, 3] bcast_S1x1x1x128_S8192x2x1x128_0_1_2_3 : (⟨S1x1x1x128, .f32⟩ : BufTy).Contents (Elt F) → (⟨S8192x2x1x128, .f32⟩ : BufTy).Contents (Elt F)),
    StableHlo.binary main_v41 main_v43 main_v44 (addf : (⟨S8192x2x1x128, .f32⟩ : BufTy).Contents (Elt F) → (⟨S8192x2x1x128, .f32⟩ : BufTy).Contents (Elt F) → (⟨S8192x2x1x128, .f32⟩ : BufTy).Contents (Elt F)),
    StableHlo.unary main_v44 main_v45 (Host.tanh : (⟨S8192x2x1x128, .f32⟩ : BufTy).Contents (Elt F) → (⟨S8192x2x1x128, .f32⟩ : BufTy).Contents (Elt F)),
    StableHlo.reshape main_v45 main_v46 rfl shapeCasts_S8192x2x1x128_S8192x256,
    StableHlo.unary main_arg5 main_v47 ((transpose S256x128 [1, 0] · transposes_S128x256_S256x128_1_0) : (⟨S128x256, .f32⟩ : BufTy).Contents (Elt F) → (⟨S256x128, .f32⟩ : BufTy).Contents (Elt F)),
    StableHlo.binary main_v46 main_v47 main_v48 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg6 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S8192x128 ![0, 1] bcast_S1x128_S8192x128_0_1 : (⟨S1x128, .f32⟩ : BufTy).Contents (Elt F) → (⟨S8192x128, .f32⟩ : BufTy).Contents (Elt F)),
    StableHlo.binary main_v48 main_v50 main_v51 (addf : (⟨S8192x128, .f32⟩ : BufTy).Contents (Elt F) → (⟨S8192x128, .f32⟩ : BufTy).Contents (Elt F) → (⟨S8192x128, .f32⟩ : BufTy).Contents (Elt F)),
    StableHlo.nullary main_call0_cst (constant S_ .f32 0x00000000#32),
    StableHlo.unary main_call0_cst main_call0_v0 (broadcastInDim S8192x128 ![] bcast_S_S8192x128 : (⟨S_, .f32⟩ : BufTy).Contents (Elt F) → (⟨S8192x128, .f32⟩ : BufTy).Contents (Elt F)),
    StableHlo.binary main_v51 main_call0_v0 main_call0_v1 (cmpf .oge : (⟨S8192x128, .f32⟩ : BufTy).Contents (Elt F) → (⟨S8192x128, .f32⟩ : BufTy).Contents (Elt F) → (⟨S8192x128, .i1⟩ : BufTy).Contents (Elt F)),
    StableHlo.nullary main_call0_cst_0 (constant S_ .f32 0x3C23D70A#32),
    StableHlo.unary main_call0_cst_0 main_call0_v2 (broadcastInDim S8192x128 ![] bcast_S_S8192x128 : (⟨S_, .f32⟩ : BufTy).Contents (Elt F) → (⟨S8192x128, .f32⟩ : BufTy).Contents (Elt F)),
    StableHlo.binary main_call0_v2 main_v51 main_call0_v3 (mulf : (⟨S8192x128, .f32⟩ : BufTy).Contents (Elt F) → (⟨S8192x128, .f32⟩ : BufTy).Contents (Elt F) → (⟨S8192x128, .f32⟩ : BufTy).Contents (Elt F)),
    StableHlo.ternary main_call0_v1 main_v51 main_call0_v3 main_v52 (select : (⟨S8192x128, .i1⟩ : BufTy).Contents (Elt F) → (⟨S8192x128, .f32⟩ : BufTy).Contents (Elt F) → (⟨S8192x128, .f32⟩ : BufTy).Contents (Elt F) → (⟨S8192x128, .f32⟩ : BufTy).Contents (Elt F)),
    StableHlo.unary main_arg7 main_v53 ((transpose S128x7 [1, 0] · transposes_S7x128_S128x7_1_0) : (⟨S7x128, .f32⟩ : BufTy).Contents (Elt F) → (⟨S128x7, .f32⟩ : BufTy).Contents (Elt F)),
    StableHlo.binary main_v52 main_v53 main_v54 ((fun l r => Host.dotGeneral dot_S8192x128_S128x7_S8192x7_1_0_0_1_n_n none l r) : (⟨S8192x128, .f32⟩ : BufTy).Contents (Elt F) → (⟨S128x7, .f32⟩ : BufTy).Contents (Elt F) → (⟨S8192x7, .f32⟩ : BufTy).Contents (Elt F)),
    StableHlo.unary main_arg8 main_v55 (broadcastInDim S1x7 ![1] bcast_S7_S1x7_1 : (⟨S7, .f32⟩ : BufTy).Contents (Elt F) → (⟨S1x7, .f32⟩ : BufTy).Contents (Elt F)),
    StableHlo.unary main_v55 main_v56 (broadcastInDim S8192x7 ![0, 1] bcast_S1x7_S8192x7_0_1 : (⟨S1x7, .f32⟩ : BufTy).Contents (Elt F) → (⟨S8192x7, .f32⟩ : BufTy).Contents (Elt F)),
    StableHlo.binary main_v54 main_v56 main_v57 (addf : (⟨S8192x7, .f32⟩ : BufTy).Contents (Elt F) → (⟨S8192x7, .f32⟩ : BufTy).Contents (Elt F) → (⟨S8192x7, .f32⟩ : BufTy).Contents (Elt F)),
    StableHlo.nullary main_cst (constant S_ .f32 0xFF800000#32),
    StableHlo.binary main_v57 main_cst main_v58 ((fun x v => Host.reduce FloatOps.maximumf x v reducesTo_S8192x7_S8192_d1 h_S_) : (⟨S8192x7, .f32⟩ : BufTy).Contents (Elt F) → (⟨S_, .f32⟩ : BufTy).Contents (Elt F) → (⟨S8192, .f32⟩ : BufTy).Contents (Elt F)),
    StableHlo.nullary main_cst_1 (constant S_ .f32 0xFF800000#32),
    StableHlo.unary main_cst_1 main_v59 (broadcastInDim S8192 ![] bcast_S_S8192 : (⟨S_, .f32⟩ : BufTy).Contents (Elt F) → (⟨S8192, .f32⟩ : BufTy).Contents (Elt F)),
    StableHlo.binary main_v59 main_v58 main_v60 (maximumf : (⟨S8192, .f32⟩ : BufTy).Contents (Elt F) → (⟨S8192, .f32⟩ : BufTy).Contents (Elt F) → (⟨S8192, .f32⟩ : BufTy).Contents (Elt F)),
    StableHlo.unary main_v60 main_v61 (broadcastInDim S8192x1 ![0] bcast_S8192_S8192x1_0 : (⟨S8192, .f32⟩ : BufTy).Contents (Elt F) → (⟨S8192x1, .f32⟩ : BufTy).Contents (Elt F)),
    StableHlo.unary main_v61 main_v62 (broadcastInDim S8192x7 ![0, 1] bcast_S8192x1_S8192x7_0_1 : (⟨S8192x1, .f32⟩ : BufTy).Contents (Elt F) → (⟨S8192x7, .f32⟩ : BufTy).Contents (Elt F)),
    StableHlo.binary main_v57 main_v62 main_v63 (subf : (⟨S8192x7, .f32⟩ : BufTy).Contents (Elt F) → (⟨S8192x7, .f32⟩ : BufTy).Contents (Elt F) → (⟨S8192x7, .f32⟩ : BufTy).Contents (Elt F)),
    StableHlo.unary main_v63 main_v64 (Host.exp : (⟨S8192x7, .f32⟩ : BufTy).Contents (Elt F) → (⟨S8192x7, .f32⟩ : BufTy).Contents (Elt F)),
    StableHlo.nullary main_cst_2 (constant S_ .f32 0x00000000#32),
    StableHlo.binary main_v64 main_cst_2 main_v65 ((fun x v => Host.reduceAdd x v reducesTo_S8192x7_S8192_d1 h_S_) : (⟨S8192x7, .f32⟩ : BufTy).Contents (Elt F) → (⟨S_, .f32⟩ : BufTy).Contents (Elt F) → (⟨S8192, .f32⟩ : BufTy).Contents (Elt F)),
    StableHlo.unary main_v65 main_v66 (broadcastInDim S8192x1 ![0] bcast_S8192_S8192x1_0 : (⟨S8192, .f32⟩ : BufTy).Contents (Elt F) → (⟨S8192x1, .f32⟩ : BufTy).Contents (Elt F)),
    StableHlo.unary main_v66 main_v67 (broadcastInDim S8192x7 ![0, 1] bcast_S8192x1_S8192x7_0_1 : (⟨S8192x1, .f32⟩ : BufTy).Contents (Elt F) → (⟨S8192x7, .f32⟩ : BufTy).Contents (Elt F)),
    StableHlo.binary main_v64 main_v67 main_v68 (Host.divf : (⟨S8192x7, .f32⟩ : BufTy).Contents (Elt F) → (⟨S8192x7, .f32⟩ : BufTy).Contents (Elt F) → (⟨S8192x7, .f32⟩ : BufTy).Contents (Elt F)) ]

-- eighty binds re-associated: the rewrite under the chain recurses once per statement
set_option maxRecDepth 4096 in
set_option maxHeartbeats 4000000 in
/-- The program is that straight line: the two windows, the rectifier's function and the selection unfolded at their
    calls, sequencing re-associated. -/
theorem main_eq (c : Dev nD) : main (F := F) c = seq ops := by
  simp only [main, main_part0, main_part1, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., reshape_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- From any memory with zero counters every weakly fair execution of the reference terminates, each buffer at the
    operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
/-- The fold at the result buffer is the composition of the stages. -/
theorem out_eq (V : Valuation τ sig (Elt F)) :
    after ops V (main_v68 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-- After the run the result buffer holds the composition of the stages at the arguments' launch contents, and the
    arguments are unchanged. -/
theorem run_refOut (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v68).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_ops m ρ)

end Cert.ReferenceIdeal.RefValue

end
-- ==== Proof.LibRefTreeDot.lean ====
/-
  A contraction of the last axis of a rank-4 array with the last axis of a matrix, read at an index.

  The dimension numbers of an [a, b, c, k] × [d, k] → [a, b, c, d] product contract the left operand's axis 3 with the
  right operand's axis 1, keep the left operand's three leading axes and the right operand's axis 0, and have no batch
  axis. At result index (p, q, r, o) and contraction position j the left operand is read at (p, q, r, j) and the right
  operand at (o, j), so the sum over the contraction shape's one-axis index set is the sum over j : Fin k of
  lhs (p, q, r, j) * rhs (o, j) — in any commutative additive monoid with a product, the extended reals included. Over
  variable extents; a printed record with these six lists is this one by reflexivity.
-/
import Idealize.ShloMosaic.Lib.ValueIdx
import Idealize.ShloMosaic.PureOps.Ideal.Laws

noncomputable section

namespace Cert.LibRef.TreeDot

open Idealize.ShloMosaic Idealize.ShloMosaic.ValueIdx
open scoped BigOperators

variable {a b c k d : Nat}

/-- The dimension numbers of the product [a, b, c, k] × [d, k] → [a, b, c, d]. -/
abbrev dims (wf : DotDims.WF ⟨4, ![a, b, c, k]⟩ ⟨2, ![d, k]⟩ ⟨4, ![a, b, c, d]⟩ [3] [1] [0, 1, 2] [0] [] []) :
    DotDims ⟨4, ![a, b, c, k]⟩ ⟨2, ![d, k]⟩ ⟨4, ![a, b, c, d]⟩ where
  lhsContracting := [3]
  rhsContracting := [1]
  lhsNonContracting := [0, 1, 2]
  rhsNonContracting := [0]
  lhsBatch := []
  rhsBatch := []
  wf := wf

variable (wf : DotDims.WF ⟨4, ![a, b, c, k]⟩ ⟨2, ![d, k]⟩ ⟨4, ![a, b, c, d]⟩ [3] [1] [0, 1, 2] [0] [] [])

/-- The left operand's three leading coordinates are the result's. -/
theorem lhs0 (i : (⟨4, ![a, b, c, d]⟩ : Shape).Idx) (t : (dims wf).contr.Idx) :
    ((dims wf).lhsIdx i t 0).val = (i 0).val := by
  unfold DotDims.lhsIdx
  rw [dif_neg (show ¬(0 : Fin 4) ∈ (dims wf).lhsBatch from List.not_mem_nil),
    dif_pos (show (0 : Fin 4) ∈ (dims wf).lhsNonContracting from (by decide : (0 : Fin 4) ∈ ([0, 1, 2] : List (Fin 4))))]
  rfl

theorem lhs1 (i : (⟨4, ![a, b, c, d]⟩ : Shape).Idx) (t : (dims wf).contr.Idx) :
    ((dims wf).lhsIdx i t 1).val = (i 1).val := by
  unfold DotDims.lhsIdx
  rw [dif_neg (show ¬(1 : Fin 4) ∈ (dims wf).lhsBatch from List.not_mem_nil),
    dif_pos (show (1 : Fin 4) ∈ (dims wf).lhsNonContracting from (by decide : (1 : Fin 4) ∈ ([0, 1, 2] : List (Fin 4))))]
  rfl

theorem lhs2 (i : (⟨4, ![a, b, c, d]⟩ : Shape).Idx) (t : (dims wf).contr.Idx) :
    ((dims wf).lhsIdx i t 2).val = (i 2).val := by
  unfold DotDims.lhsIdx
  rw [dif_neg (show ¬(2 : Fin 4) ∈ (dims wf).lhsBatch from List.not_mem_nil),
    dif_pos (show (2 : Fin 4) ∈ (dims wf).lhsNonContracting from (by decide : (2 : Fin 4) ∈ ([0, 1, 2] : List (Fin 4))))]
  rfl

/-- The left operand's last coordinate is the contraction position. -/
theorem lhs3 (i : (⟨4, ![a, b, c, d]⟩ : Shape).Idx) (t : (dims wf).contr.Idx) :
    ((dims wf).lhsIdx i t 3).val = (t ⟨0, Nat.one_pos⟩).val :=
  (dims wf).lhsIdx_val_of_single rfl i t

/-- The right operand's row is the result's last coordinate. -/
theorem rhs0 (i : (⟨4, ![a, b, c, d]⟩ : Shape).Idx) (t : (dims wf).contr.Idx) :
    ((dims wf).rhsIdx i t 0).val = (i 3).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs1 (i : (⟨4, ![a, b, c, d]⟩ : Shape).Idx) (t : (dims wf).contr.Idx) :
    ((dims wf).rhsIdx i t 1).val = (t ⟨0, Nat.one_pos⟩).val :=
  (dims wf).rhsIdx_val_of_single rfl i t

/-- The product's sum at (p, q, r, o): over j, the left operand at (p, q, r, j) times the right operand at (o, j). -/
theorem sum_apply {M : Type*} [AddCommMonoid M] [Mul M] (lhs : (⟨4, ![a, b, c, k]⟩ : Shape).Idx → M)
    (rhs : (⟨2, ![d, k]⟩ : Shape).Idx → M) (p : Fin a) (q : Fin b) (r : Fin c) (o : Fin d) :
    ∑ t : (dims wf).contr.Idx, lhs ((dims wf).lhsIdx (ix4 p q r o) t) * rhs ((dims wf).rhsIdx (ix4 p q r o) t)
      = ∑ j : Fin k, lhs (ix4 p q r j) * rhs (ix2 o j) := by
  rw [← Equiv.sum_comp (contrEquiv1 (dims wf) k rfl rfl).symm]
  refine Finset.sum_congr rfl fun j _ => ?_
  have hj := contrEquiv1_symm_val (dims wf) k rfl rfl j
  have el : (dims wf).lhsIdx (ix4 p q r o) ((contrEquiv1 (dims wf) k rfl rfl).symm j) = ix4 p q r j :=
    funext fun ax => Fin.ext (by
      match ax with
      | ⟨0, _⟩ => exact lhs0 wf _ _
      | ⟨1, _⟩ => exact lhs1 wf _ _
      | ⟨2, _⟩ => exact lhs2 wf _ _
      | ⟨3, _⟩ => exact (lhs3 wf _ _).trans hj)
  have er : (dims wf).rhsIdx (ix4 p q r o) ((contrEquiv1 (dims wf) k rfl rfl).symm j) = ix2 o j :=
    funext fun ax => Fin.ext (by
      match ax with
      | ⟨0, _⟩ => exact rhs0 wf _ _
      | ⟨1, _⟩ => exact (rhs1 wf _ _).trans hj)
  rw [el, er]

/-- The host's product, at the exact values, read at (p, q, r, o). -/
theorem dotGeneral_apply {φ₁ φ₂ : FTy} (prec : Option ContractPrecision) (lhs : FVec Ideal ⟨4, ![a, b, c, k]⟩ φ₁)
    (rhs : FVec Ideal ⟨2, ![d, k]⟩ φ₂) (p : Fin a) (q : Fin b) (r : Fin c) (o : Fin d) :
    Host.dotGeneral (dims wf) prec lhs rhs (ix4 p q r o) = ∑ j : Fin k, lhs (ix4 p q r j) * rhs (ix2 o j) :=
  (Ideal.dotGeneral_apply (dims wf) prec _ lhs rhs (ix4 p q r o)).trans (sum_apply wf lhs rhs p q r o)

end Cert.LibRef.TreeDot

end
-- ==== Proof.LibRefLevel.lean ====
/-
  One composition level of the tree network, the roots side by side, and the leaky rectifier, as array operations read
  at an index.

  A level regroups an [a, b, 2c, 128] array as [a, b, c, 256]: row-major order is kept, so position j of the regrouped
  node i is feature j mod 128 of node 2i + j / 128. The regrouped array is contracted with the 128 × 256 weights, the
  bias (broadcast from [128] to [1, 1, 1, 128] and then to the full shape) is added, and tanh applied: read at
  (p, q, i, o) that is the level of the network at node i, feature o, of the tree (p, q). Regrouping [a, 2, 1, 128] as
  [a, 256] puts the two roots of entry p side by side. The rectifier written as a selection on z ≥ 0 between z and the
  slope times z is the rectifier written with 0 < z: they can differ only at z = 0, where both give 0.
-/
import proofs.«173905_j52063593563027_2_alg».proof.Proof.TreeNet
import proofs.«173905_j52063593563027_2_alg».proof.Proof.LibRefTreeDot
import Idealize.ShloMosaic.Lib.Pipeline.Value

noncomputable section

namespace Cert.LibRef.Level

open Idealize.ShloMosaic Idealize.ShloMosaic.ValueIdx Cert.TreeNet Cert.LibRef
open scoped BigOperators

variable {a b c n2 : Nat}

/-- The regrouped array at (p, q, i, j) is the array at (p, q, 2i + j / 128, j mod 128). -/
theorem pairCast_apply {α : Type} (hn : n2 = 2 * c) (x : (⟨4, ![a, b, n2, 128]⟩ : Shape).Idx → α)
    (h : (⟨4, ![a, b, n2, 128]⟩ : Shape).ShapeCasts ⟨4, ![a, b, c, 256]⟩) (p : Fin a) (q : Fin b) (i : Fin c) (j : Fin 256) :
    shapeCast ⟨4, ![a, b, c, 256]⟩ x h (ix4 p q i j) = x (ix4 p q (child hn i j) (feat j)) :=
  shapeCast_apply x h _ _ (by
    rw [Shape.rowMajor_val_four, Shape.rowMajor_val_four]
    show ((p.val * b + q.val) * n2 + (2 * i.val + j.val / 128)) * 128 + j.val % 128
      = ((p.val * b + q.val) * c + i.val) * 256 + j.val
    subst hn
    generalize p.val * b + q.val = X
    have h1 : X * (2 * c) = 2 * (X * c) := Nat.mul_left_comm X 2 c
    omega)

/-- The bias broadcast from [128] to [1, 1, 1, 128] and then to [a, b, c, 128] reads, at (p, q, i, o), the bias at o. -/
theorem bias4_apply {α : Type} (cb : (⟨1, ![128]⟩ : Shape).Idx → α)
    (h1 : (⟨1, ![128]⟩ : Shape).BroadcastsInDim ⟨4, ![1, 1, 1, 128]⟩ ![3])
    (h2 : (⟨4, ![1, 1, 1, 128]⟩ : Shape).BroadcastsInDim ⟨4, ![a, b, c, 128]⟩ ![0, 1, 2, 3])
    (p : Fin a) (q : Fin b) (i : Fin c) (o : Fin 128) :
    broadcastInDim ⟨4, ![a, b, c, 128]⟩ ![0, 1, 2, 3] h2 (broadcastInDim ⟨4, ![1, 1, 1, 128]⟩ ![3] h1 cb) (ix4 p q i o)
      = cb (ix1 o) := by
  have e2 : broadcastInDim ⟨4, ![a, b, c, 128]⟩ ![0, 1, 2, 3] h2 (broadcastInDim ⟨4, ![1, 1, 1, 128]⟩ ![3] h1 cb) (ix4 p q i o)
      = broadcastInDim ⟨4, ![1, 1, 1, 128]⟩ ![3] h1 cb (ix4 (0 : Fin 1) (0 : Fin 1) (0 : Fin 1) o) :=
    broadcastInDim_apply _ h2 _ (ix4 p q i o) (ix4 (0 : Fin 1) (0 : Fin 1) (0 : Fin 1) o) fun ax => by
      match ax with
      | ⟨0, _⟩ =>
        show (0 : Nat) = if (1 : Nat) = 1 then 0 else p.val
        rw [if_pos rfl]
      | ⟨1, _⟩ =>
        show (0 : Nat) = if (1 : Nat) = 1 then 0 else q.val
        rw [if_pos rfl]
      | ⟨2, _⟩ =>
        show (0 : Nat) = if (1 : Nat) = 1 then 0 else i.val
        rw [if_pos rfl]
      | ⟨3, _⟩ =>
        show o.val = if (128 : Nat) = 1 then 0 else o.val
        rw [if_neg (by decide)]
  have e1 : broadcastInDim ⟨4, ![1, 1, 1, 128]⟩ ![3] h1 cb (ix4 (0 : Fin 1) (0 : Fin 1) (0 : Fin 1) o) = cb (ix1 o) :=
    broadcastInDim_apply _ h1 cb (ix4 (0 : Fin 1) (0 : Fin 1) (0 : Fin 1) o) (ix1 o) fun ax => by
      match ax with
      | ⟨0, _⟩ =>
        show o.val = if (128 : Nat) = 1 then 0 else o.val
        rw [if_neg (by decide)]
  rw [e2, e1]

/-- One level as array operations, read at (p, q, i, o): the level of the network on the tree (p, q). -/
theorem level_apply (hn : n2 = 2 * c)
    (wf : DotDims.WF ⟨4, ![a, b, c, 256]⟩ ⟨2, ![128, 256]⟩ ⟨4, ![a, b, c, 128]⟩ [3] [1] [0, 1, 2] [0] [] [])
    (x : FVec Ideal ⟨4, ![a, b, n2, 128]⟩ .f32) (cw : FVec Ideal ⟨2, ![128, 256]⟩ .f32) (cb : FVec Ideal ⟨1, ![128]⟩ .f32)
    (hc : (⟨4, ![a, b, n2, 128]⟩ : Shape).ShapeCasts ⟨4, ![a, b, c, 256]⟩)
    (h1 : (⟨1, ![128]⟩ : Shape).BroadcastsInDim ⟨4, ![1, 1, 1, 128]⟩ ![3])
    (h2 : (⟨4, ![1, 1, 1, 128]⟩ : Shape).BroadcastsInDim ⟨4, ![a, b, c, 128]⟩ ![0, 1, 2, 3])
    (p : Fin a) (q : Fin b) (i : Fin c) (o : Fin 128) :
    Host.tanh (addf (Host.dotGeneral (TreeDot.dims wf) none (shapeCast ⟨4, ![a, b, c, 256]⟩ x hc) cw)
        (broadcastInDim ⟨4, ![a, b, c, 128]⟩ ![0, 1, 2, 3] h2 (broadcastInDim ⟨4, ![1, 1, 1, 128]⟩ ![3] h1 cb))) (ix4 p q i o)
      = up hn (fun d j => cw (ix2 d j)) (fun d => cb (ix1 d)) (fun l e => x (ix4 p q l e)) i o := by
  simp only [Host.tanh, addf, Ideal.hostUnary_tanh_def, Ideal.addf_def]
  rw [TreeDot.dotGeneral_apply, bias4_apply]
  unfold up
  refine congrArg Ideal.tanh (congrArg (· + cb (ix1 o)) (Finset.sum_congr rfl fun j _ => ?_))
  rw [pairCast_apply hn]

/-- The same as an equation between the arrays of one tree: level by level, a tree's nodes are the network's. -/
theorem level_rows (hn : n2 = 2 * c)
    (wf : DotDims.WF ⟨4, ![a, b, c, 256]⟩ ⟨2, ![128, 256]⟩ ⟨4, ![a, b, c, 128]⟩ [3] [1] [0, 1, 2] [0] [] [])
    (x : FVec Ideal ⟨4, ![a, b, n2, 128]⟩ .f32) (cw : FVec Ideal ⟨2, ![128, 256]⟩ .f32) (cb : FVec Ideal ⟨1, ![128]⟩ .f32)
    (hc : (⟨4, ![a, b, n2, 128]⟩ : Shape).ShapeCasts ⟨4, ![a, b, c, 256]⟩)
    (h1 : (⟨1, ![128]⟩ : Shape).BroadcastsInDim ⟨4, ![1, 1, 1, 128]⟩ ![3])
    (h2 : (⟨4, ![1, 1, 1, 128]⟩ : Shape).BroadcastsInDim ⟨4, ![a, b, c, 128]⟩ ![0, 1, 2, 3])
    (p : Fin a) (q : Fin b) :
    (fun (i : Fin c) (o : Fin 128) =>
        Host.tanh (addf (Host.dotGeneral (TreeDot.dims wf) none (shapeCast ⟨4, ![a, b, c, 256]⟩ x hc) cw)
          (broadcastInDim ⟨4, ![a, b, c, 128]⟩ ![0, 1, 2, 3] h2 (broadcastInDim ⟨4, ![1, 1, 1, 128]⟩ ![3] h1 cb))) (ix4 p q i o))
      = up hn (fun d j => cw (ix2 d j)) (fun d => cb (ix1 d)) (fun l e => x (ix4 p q l e)) :=
  funext fun i => funext fun o => level_apply hn wf x cw cb hc h1 h2 p q i o

/-- The two roots side by side: [a, 2, 1, 128] regrouped as [a, 256] reads, at (p, j), root j / 128 at feature
    j mod 128. -/
theorem rootCast_apply {α : Type} (x : (⟨4, ![a, 2, 1, 128]⟩ : Shape).Idx → α)
    (h : (⟨4, ![a, 2, 1, 128]⟩ : Shape).ShapeCasts ⟨2, ![a, 256]⟩) (p : Fin a) (j : Fin 256) :
    shapeCast ⟨2, ![a, 256]⟩ x h (ix2 p j)
      = x (ix4 p (⟨j.val / 128, by have := j.isLt; omega⟩ : Fin 2) (0 : Fin 1) (feat j)) :=
  shapeCast_apply x h _ _ (by
    rw [Shape.rowMajor_val_four, Shape.rowMajor_val_two]
    show ((p.val * 2 + j.val / 128) * 1 + 0) * 128 + j.val % 128 = p.val * 256 + j.val
    omega)

/-- The rectifier as a selection on z ≥ 0 is the rectifier with 0 < z. -/
theorem leaky_select (z : EReal) :
    Scalar.select (Ideal.cmp .oge z (Ideal.ofBits .f32 0x00000000#32)) z (Ideal.ofBits .f32 0x3C23D70A#32 * z) = leaky z := by
  rw [Ideal.ofBits_zero_f32]
  unfold leaky Cert.TreeNet.slope Scalar.select Ideal.cmp
  by_cases h0 : (0 : EReal) ≤ z
  · rw [if_pos (by simp [h0])]
    rcases h0.lt_or_eq with hlt | heq
    · rw [if_pos hlt]
    · rw [if_neg (by rw [← heq]; exact lt_irrefl _), ← heq, mul_zero]
  · rw [if_neg (by simp [h0]), if_neg (fun hlt => h0 hlt.le)]

end Cert.LibRef.Level

end
-- ==== Proof.LibRefHead.lean ====
/-
  The rectifier, a keepdims column, the row maximum, the row sum and the softmax's two elementwise steps, as array
  operations read at an index.

  A selection on z ≥ 0 between z and the slope word's value times z, with both constants broadcast from a scalar, reads at
  every index the leaky rectifier of the element. A length-a vector broadcast to an a × 1 column and then across c
  columns reads, at (p, k), the vector at p. The reference's row maximum over an a × 7 array — the fold of max from the
  -inf word along each row, then max with the -inf word once more — is the maximum of the row's seven entries folded from
  -inf; its row sum from the zero word is the sum of the seven entries. The exponential of an array less a keepdims
  column, and an array over a keepdims column, read elementwise.
-/
import proofs.«173905_j52063593563027_2_alg».proof.Proof.TreeNet
import proofs.«173905_j52063593563027_2_alg».proof.Proof.LibRefLevel
import proofs.«173905_j52063593563027_2_alg».proof.Proof.LibRowBroadcasts
import Idealize.ShloMosaic.Lib.Pipeline.Value
import Idealize.ShloMosaic.PureOps.Reduce
import Idealize.ShloMosaic.PureOps.Ideal.Laws

noncomputable section

namespace Cert.LibRef.Head

open Idealize.ShloMosaic Idealize.ShloMosaic.ValueIdx Cert.TreeNet Cert.LibRef Cert.Lib
open scoped BigOperators

variable {a c : Nat}

/-- The rectifier over an array of any shape, read at an index. -/
theorem rect_apply {s : Shape} (hb : (⟨0, ![]⟩ : Shape).BroadcastsInDim s (![] : Fin 0 → Fin s.rank)) (z : FVec Ideal s .f32)
    (i : s.Idx) :
    select (cmpf .oge z (broadcastInDim s ![] hb (constant (F := Ideal) ⟨0, ![]⟩ .f32 0x00000000#32))) z
        (mulf (broadcastInDim s ![] hb (constant (F := Ideal) ⟨0, ![]⟩ .f32 0x3C23D70A#32)) z) i
      = leaky (z i) :=
  Level.leaky_select (z i)

/-- A length-a vector as an a × 1 column broadcast across c columns reads, at (p, k), the vector at p. -/
theorem keepCol_apply {α : Type} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, c]⟩ ![0, 1]) (p : Fin a) (k : Fin c) :
    broadcastInDim ⟨2, ![a, c]⟩ ![0, 1] h2 (broadcastInDim ⟨2, ![a, 1]⟩ ![0] h1 v) (ix2 p k) = v (ix1 p) := by
  rw [Rows.dimCol_apply]
  exact broadcastInDim_apply _ h1 v (ix2 p (0 : Fin 1)) (ix1 p) fun ax => by
    match ax with
    | ⟨0, _⟩ =>
      show p.val = if a = 1 then 0 else p.val
      split
      · have := p.isLt; omega
      · rfl

/-- The reduced index p with the column k put back is (p, k). -/
theorem lift_row (h : (⟨2, ![a, 7]⟩ : Shape).Reduces [1] (⟨1, ![a]⟩ : Shape)) (p : Fin a)
    (k : Fin ((⟨2, ![a, 7]⟩ : Shape).size 1)) : h.lift (ix1 p) k = ix2 p (⟨k.val, k.isLt⟩ : Fin 7) := by
  funext ax; apply Fin.ext
  fin_cases ax <;> rfl

/-- The -inf word's value is below every extended real. -/
theorem max_ninf (y : EReal) : max (Ideal.ofBits .f32 0xFF800000#32) y = y := by simp [Ideal.ofBits, Ideal.ieee]

/-- The reference's row maximum at p: the maximum of row p's seven entries, folded from -inf. -/
theorem rowMax_apply (l : FVec Ideal ⟨2, ![a, 7]⟩ .f32) (h' : (⟨2, ![a, 7]⟩ : Shape).ReducesTo [1] (⟨1, ![a]⟩ : Shape))
    (h : (⟨2, ![a, 7]⟩ : Shape).Reduces [1] (⟨1, ![a]⟩ : Shape)) (hu : 0 < (⟨0, ![]⟩ : Shape).numel)
    (hb : (⟨0, ![]⟩ : Shape).BroadcastsInDim ⟨1, ![a]⟩ (![] : Fin 0 → Fin 1)) (p : Fin a) :
    maximumf (broadcastInDim ⟨1, ![a]⟩ ![] hb (constant (F := Ideal) ⟨0, ![]⟩ .f32 0xFF800000#32))
        (Host.reduce FloatOps.maximumf l (constant (F := Ideal) ⟨0, ![]⟩ .f32 0xFF800000#32) h' hu) (ix1 p)
      = rowMax (fun r => l (ix2 p r)) := by
  show max (Ideal.ofBits .f32 0xFF800000#32)
      (Host.reduce FloatOps.maximumf l (constant (F := Ideal) ⟨0, ![]⟩ .f32 0xFF800000#32) h' hu (ix1 p)) = _
  rw [max_ninf, Host.reduce_eq_fold_single FloatOps.maximumf l _ h' h hu]
  have hf : (l ∘ h.lift (ix1 p)) = fun r : Fin 7 => l (ix2 p r) := funext fun k => congrArg l (lift_row h p k)
  exact congrArg (fun f => Finset.fold max (Ideal.ofBits .f32 0xFF800000#32) f (Finset.univ : Finset (Fin 7))) hf

/-- The reference's row sum at p, from the zero word: the sum of row p's seven entries. -/
theorem rowSum_apply (e : FVec Ideal ⟨2, ![a, 7]⟩ .f32) (h' : (⟨2, ![a, 7]⟩ : Shape).ReducesTo [1] (⟨1, ![a]⟩ : Shape))
    (h : (⟨2, ![a, 7]⟩ : Shape).Reduces [1] (⟨1, ![a]⟩ : Shape)) (hu : 0 < (⟨0, ![]⟩ : Shape).numel) (p : Fin a) :
    Host.reduceAdd e (constant (F := Ideal) ⟨0, ![]⟩ .f32 0x00000000#32) h' hu (ix1 p) = ∑ k : Fin 7, e (ix2 p k) := by
  show Ideal.hostReduceAdd h' e (Ideal.ofBits .f32 0x00000000#32) (ix1 p) = _
  rw [Ideal.hostReduceAdd_single h' h, Ideal.ofBits_zero_f32, zero_add]
  exact Finset.sum_congr rfl fun k _ => congrArg e (lift_row h p k)

/-- The exponential of an array less a keepdims column, at (p, k). -/
theorem expRow_apply (l : FVec Ideal ⟨2, ![a, c]⟩ .f32) (m : FVec Ideal ⟨1, ![a]⟩ .f32)
    (h1 : (⟨1, ![a]⟩ : Shape).BroadcastsInDim ⟨2, ![a, 1]⟩ ![0])
    (h2 : (⟨2, ![a, 1]⟩ : Shape).BroadcastsInDim ⟨2, ![a, c]⟩ ![0, 1]) (p : Fin a) (k : Fin c) :
    Host.exp (subf l (broadcastInDim ⟨2, ![a, c]⟩ ![0, 1] h2 (broadcastInDim ⟨2, ![a, 1]⟩ ![0] h1 m))) (ix2 p k)
      = Ideal.exp (l (ix2 p k) - m (ix1 p)) := by
  simp only [Host.exp, subf, Ideal.hostUnary_exp_def, Ideal.subf_def]
  rw [keepCol_apply]

/-- An array over a keepdims column, at (p, k). -/
theorem divRow_apply (e : FVec Ideal ⟨2, ![a, c]⟩ .f32) (m : FVec Ideal ⟨1, ![a]⟩ .f32)
    (h1 : (⟨1, ![a]⟩ : Shape).BroadcastsInDim ⟨2, ![a, 1]⟩ ![0])
    (h2 : (⟨2, ![a, 1]⟩ : Shape).BroadcastsInDim ⟨2, ![a, c]⟩ ![0, 1]) (p : Fin a) (k : Fin c) :
    Host.divf e (broadcastInDim ⟨2, ![a, c]⟩ ![0, 1] h2 (broadcastInDim ⟨2, ![a, 1]⟩ ![0] h1 m)) (ix2 p k)
      = Ideal.div (e (ix2 p k)) (m (ix1 p)) := by
  simp only [Host.divf, Ideal.hostDivf_def]
  rw [keepCol_apply]

end Cert.LibRef.Head

end
-- ==== Proof.RefValue.lean ====
/-
  The reference computes the tree network.

  The composition of the reference's stages, read at result index (b, r), is the network of batch entry b's leaves at
  class r: the leaves are the gathered vocabulary rows plus the leaf bias; each composition level of the arrays is the
  level of the network on every tree, so the six of them are the root; the regrouped roots are the pair; the dense
  layer with its rectifier is the hidden layer; the second dense layer the logits; and the exponentials over their row
  sum, after the row maximum is subtracted, the softmax. With the run of the reference's operations this gives its
  result buffer as the network of the launch contents of its arguments, which are unchanged.
-/
import proofs.«173905_j52063593563027_2_alg».proof.Proof.RefRun
import proofs.«173905_j52063593563027_2_alg».proof.Proof.TreeNet
import proofs.«173905_j52063593563027_2_alg».proof.Proof.LibRefLevel
import proofs.«173905_j52063593563027_2_alg».proof.Proof.LibRefHead
import proofs.«173905_j52063593563027_2_alg».proof.Proof.LibDenseLayer
import proofs.«173905_j52063593563027_2_alg».proof.Proof.LibMergeRows

noncomputable section

namespace Cert.ReferenceIdeal.RefValue

open Cert.ReferenceIdeal Cert.ReferenceIdeal.Gen Idealize.ShloMosaic Idealize.ShloMosaic.ValueIdx Idealize.ShloMosaic.TcCoe
  Idealize.SL.Sem Cert.LibRef Cert.Lib
open scoped BigOperators

/-- The nodes of tree (b, s) of an [8192, 2, n, 128] array: node l, feature e. -/
def rowsOf {n : Nat} (x : FVec Ideal ⟨4, ![8192, 2, n, 128]⟩ .f32) (b : Fin 8192) (s : Fin 2) : Fin n → Fin 128 → EReal :=
  fun l e => x (ix4 b s l e)

/-- The leaves of tree (b, s) are the network's. -/
theorem rows_leaf (tok : IVec S8192x2x64 32) (vw : FVec Ideal S10000x128 .f32) (vb : FVec Ideal S128 .f32)
    (b : Fin 8192) (s : Fin 2) :
    rowsOf (leafArr tok vw vb) b s = Cert.TreeNet.leaves gather_S10000x128_S8192x2x64x1_S8192x2x64x128_3_0_n_n_0_3_1128 (idxCol tok) vw vb b s := by
  funext l d
  show leafArr tok vw vb (ix4 b s l d) = _
  unfold leafArr Cert.TreeNet.leaves
  simp only [addf, Ideal.addf_def]
  rw [Level.bias4_apply]

section Levels

variable (cw : FVec Ideal S128x256 .f32) (cb : FVec Ideal S128 .f32)

theorem rows_lvl32 (h : FVec Ideal S8192x2x64x128 .f32) (b : Fin 8192) (s : Fin 2) :
    rowsOf (lvl32 cw cb h) b s
      = Cert.TreeNet.up (n2 := 64) (n := 32) rfl (fun d j => cw (ix2 d j)) (fun d => cb (ix1 d)) (rowsOf h b s) :=
  Level.level_rows rfl dot_S8192x2x32x256_S128x256_S8192x2x32x128_3_1_012_0_n_n_wf h cw cb
    shapeCasts_S8192x2x64x128_S8192x2x32x256 bcast_S128_S1x1x1x128_3 bcast_S1x1x1x128_S8192x2x32x128_0_1_2_3 b s

theorem rows_lvl16 (h : FVec Ideal S8192x2x32x128 .f32) (b : Fin 8192) (s : Fin 2) :
    rowsOf (lvl16 cw cb h) b s
      = Cert.TreeNet.up (n2 := 32) (n := 16) rfl (fun d j => cw (ix2 d j)) (fun d => cb (ix1 d)) (rowsOf h b s) :=
  Level.level_rows rfl dot_S8192x2x16x256_S128x256_S8192x2x16x128_3_1_012_0_n_n_wf h cw cb
    shapeCasts_S8192x2x32x128_S8192x2x16x256 bcast_S128_S1x1x1x128_3 bcast_S1x1x1x128_S8192x2x16x128_0_1_2_3 b s

theorem rows_lvl8 (h : FVec Ideal S8192x2x16x128 .f32) (b : Fin 8192) (s : Fin 2) :
    rowsOf (lvl8 cw cb h) b s
      = Cert.TreeNet.up (n2 := 16) (n := 8) rfl (fun d j => cw (ix2 d j)) (fun d => cb (ix1 d)) (rowsOf h b s) :=
  Level.level_rows rfl dot_S8192x2x8x256_S128x256_S8192x2x8x128_3_1_012_0_n_n_wf h cw cb
    shapeCasts_S8192x2x16x128_S8192x2x8x256 bcast_S128_S1x1x1x128_3 bcast_S1x1x1x128_S8192x2x8x128_0_1_2_3 b s

theorem rows_lvl4 (h : FVec Ideal S8192x2x8x128 .f32) (b : Fin 8192) (s : Fin 2) :
    rowsOf (lvl4 cw cb h) b s
      = Cert.TreeNet.up (n2 := 8) (n := 4) rfl (fun d j => cw (ix2 d j)) (fun d => cb (ix1 d)) (rowsOf h b s) :=
  Level.level_rows rfl dot_S8192x2x4x256_S128x256_S8192x2x4x128_3_1_012_0_n_n_wf h cw cb
    shapeCasts_S8192x2x8x128_S8192x2x4x256 bcast_S128_S1x1x1x128_3 bcast_S1x1x1x128_S8192x2x4x128_0_1_2_3 b s

theorem rows_lvl2 (h : FVec Ideal S8192x2x4x128 .f32) (b : Fin 8192) (s : Fin 2) :
    rowsOf (lvl2 cw cb h) b s
      = Cert.TreeNet.up (n2 := 4) (n := 2) rfl (fun d j => cw (ix2 d j)) (fun d => cb (ix1 d)) (rowsOf h b s) :=
  Level.level_rows rfl dot_S8192x2x2x256_S128x256_S8192x2x2x128_3_1_012_0_n_n_wf h cw cb
    shapeCasts_S8192x2x4x128_S8192x2x2x256 bcast_S128_S1x1x1x128_3 bcast_S1x1x1x128_S8192x2x2x128_0_1_2_3 b s

theorem rows_lvl1 (h : FVec Ideal S8192x2x2x128 .f32) (b : Fin 8192) (s : Fin 2) :
    rowsOf (lvl1 cw cb h) b s
      = Cert.TreeNet.up (n2 := 2) (n := 1) rfl (fun d j => cw (ix2 d j)) (fun d => cb (ix1 d)) (rowsOf h b s) :=
  Level.level_rows rfl dot_S8192x2x1x256_S128x256_S8192x2x1x128_3_1_012_0_n_n_wf h cw cb
    shapeCasts_S8192x2x2x128_S8192x2x1x256 bcast_S128_S1x1x1x128_3 bcast_S1x1x1x128_S8192x2x1x128_0_1_2_3 b s

/-- The six levels of the arrays, at tree (b, s), are the root of that tree's leaves. -/
theorem top_apply (h : FVec Ideal S8192x2x64x128 .f32) (b : Fin 8192) (s : Fin 2) (d : Fin 128) :
    topArr cw cb h (ix4 b s (0 : Fin 1) d)
      = Cert.TreeNet.root (fun d j => cw (ix2 d j)) (fun d => cb (ix1 d)) (rowsOf h b s) d := by
  show rowsOf (topArr cw cb h) b s 0 d = _
  unfold topArr Cert.TreeNet.root
  rw [rows_lvl1, rows_lvl2, rows_lvl4, rows_lvl8, rows_lvl16, rows_lvl32]

/-- The regrouped roots of entry b are the network's pair. -/
theorem rootArr_apply (tok : IVec S8192x2x64 32) (vw : FVec Ideal S10000x128 .f32) (vb : FVec Ideal S128 .f32)
    (b : Fin 8192) (j : Fin 256) :
    rootArr (topArr cw cb (leafArr tok vw vb)) (ix2 b j)
      = Cert.TreeNet.pair (fun d j => cw (ix2 d j)) (fun d => cb (ix1 d))
          (Cert.TreeNet.leaves gather_S10000x128_S8192x2x64x1_S8192x2x64x128_3_0_n_n_0_3_1128 (idxCol tok) vw vb b) j := by
  unfold rootArr Cert.TreeNet.pair
  rw [Level.rootCast_apply, top_apply, rows_leaf]

end Levels

/-- The dense layer and its rectifier, at (b, c), are the network's hidden layer on row b. -/
theorem hidden_apply (wr : FVec Ideal S128x256 .f32) (br : FVec Ideal S128 .f32) (X : FVec Ideal S8192x256 .f32)
    (b : Fin 8192) (c : Fin 128) :
    rectArr (preArr wr br X) (ix2 b c)
      = Cert.TreeNet.hidden (fun c j => wr (ix2 c j)) (fun c => br (ix1 c)) (fun j => X (ix2 b j)) c := by
  unfold rectArr
  refine (Head.rect_apply bcast_S_S8192x128 (preArr wr br X) (ix2 b c)).trans ?_
  unfold preArr Cert.TreeNet.hidden
  refine congrArg Cert.TreeNet.leaky ?_
  refine (Dense.hdense_apply dot_S8192x256_S256x128_S8192x128_1_0_0_1_n_n_wf X
    (transpose S256x128 [1, 0] wr transposes_S128x256_S256x128_1_0) br bcast_S128_S1x128_1 bcast_S1x128_S8192x128_0_1 b c).trans ?_
  unfold Dense.dense
  refine congrArg (· + br (ix1 c)) (Finset.sum_congr rfl fun k _ => ?_)
  rw [MergeRows.transpose_apply]

/-- The second dense layer, at (b, r), is the network's logits on row b. -/
theorem logit_apply (ws : FVec Ideal S7x128 .f32) (bs : FVec Ideal S7 .f32) (Z : FVec Ideal S8192x128 .f32)
    (b : Fin 8192) (r : Fin 7) :
    logitArr ws bs Z (ix2 b r)
      = Cert.TreeNet.logits (fun r c => ws (ix2 r c)) (fun r => bs (ix1 r)) (fun c => Z (ix2 b c)) r := by
  unfold logitArr Cert.TreeNet.logits
  refine (Dense.hdense_apply dot_S8192x128_S128x7_S8192x7_1_0_0_1_n_n_wf Z
    (transpose S128x7 [1, 0] ws transposes_S7x128_S128x7_1_0) bs bcast_S7_S1x7_1 bcast_S1x7_S8192x7_0_1 b r).trans ?_
  unfold Dense.dense
  refine congrArg (· + bs (ix1 r)) (Finset.sum_congr rfl fun k _ => ?_)
  rw [MergeRows.transpose_apply]

/-- The exponentials over their row sum, at (b, r), are the softmax of row b. -/
theorem soft_apply (l : FVec Ideal S8192x7 .f32) (b : Fin 8192) (r : Fin 7) :
    softArr (expArr l) (ix2 b r) = Cert.TreeNet.softmax (fun k => l (ix2 b k)) r := by
  have hE : ∀ k : Fin 7, expArr l (ix2 b k)
      = Ideal.exp (l (ix2 b k) - Cert.TreeNet.rowMax (fun r => l (ix2 b r))) := fun k => by
    unfold expArr
    refine (Head.expRow_apply l (maxArr l) bcast_S8192_S8192x1_0 bcast_S8192x1_S8192x7_0_1 b k).trans ?_
    unfold maxArr
    rw [Head.rowMax_apply l reducesTo_S8192x7_S8192_d1 (by decide) h_S_ bcast_S_S8192 b]
  unfold softArr
  refine (Head.divRow_apply (expArr l) _ bcast_S8192_S8192x1_0 bcast_S8192x1_S8192x7_0_1 b r).trans ?_
  rw [Head.rowSum_apply (expArr l) reducesTo_S8192x7_S8192_d1 (by decide) h_S_ b]
  unfold Cert.TreeNet.softmax
  simp only [hE]

/-- The composition of the reference's stages is the network of each entry's leaves. -/
theorem refOut_eq (tok : IVec S8192x2x64 32) (vw : FVec Ideal S10000x128 .f32) (vb : FVec Ideal S128 .f32)
    (cw : FVec Ideal S128x256 .f32) (cb : FVec Ideal S128 .f32) (wr : FVec Ideal S128x256 .f32) (br : FVec Ideal S128 .f32)
    (ws : FVec Ideal S7x128 .f32) (bs : FVec Ideal S7 .f32) :
    refOut (F := Ideal) tok vw vb cw cb wr br ws bs
      = Cert.TreeNet.G gather_S10000x128_S8192x2x64x1_S8192x2x64x128_3_0_n_n_0_3_1128 (idxCol tok) vw vb cw cb wr br ws bs := by
  funext i
  obtain ⟨b, r, rfl⟩ : ∃ (b : Fin 8192) (r : Fin 7), i = ix2 b r := ⟨i 0, i 1, eq_ix2 i⟩
  unfold refOut Cert.TreeNet.G Cert.TreeNet.net
  rw [soft_apply]
  refine congrFun (congrArg Cert.TreeNet.softmax ?_) r
  funext k
  rw [logit_apply]
  refine congrFun (congrArg (Cert.TreeNet.logits _ _) ?_) k
  funext c
  rw [hidden_apply]
  refine congrFun (congrArg (Cert.TreeNet.hidden _ _) ?_) c
  funext j
  exact rootArr_apply cw cb tok vw vb b j

/-- From any memory with zero counters every weakly fair execution of the reference terminates with its result buffer at
    the network of the launch contents of its arguments (the tokens through the index column), the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v68)
        = Cert.TreeNet.G gather_S10000x128_S8192x2x64x1_S8192x2x64x128_3_0_n_n_0_3_1128 (idxCol (m ((c.tc : Thread nD τ).loc main_arg0)))
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c => ⟨(h c).1.trans (refOut_eq _ _ _ _ _ _ _ _ _), (h c).2⟩)
    (run_refOut (F := Ideal) m ρ)

end Cert.ReferenceIdeal.RefValue

end
-- ==== Proof.lean ====
/-
  Six levels of pairwise tree composition, a rectified dense layer and a softmax head: the kernel against its reference.

  Both programs compute, for each of 8192 batch entries, the network `TreeNet.net` of the entry's two trees of 64 leaves
  (Proof/TreeNet.lean). They differ only in arrangement. The kernel adds the leaf bias to the vocabulary table before
  gathering the leaves, where the reference gathers and then adds: a gather only selects rows, so the two agree
  (Proof/KernelGather.lean). The kernel runs each level as one matrix product over the flat rows of a block of 128
  entries, where the reference contracts the last axis of a rank-4 array: node i of a level reads nodes 2i and 2i + 1 of
  the level below, so a tree's nodes are a block of consecutive flat rows at every level and the two agree
  (Proof/KernelLevels.lean, Proof/KernelTree.lean). The kernel rectifies on z > 0 and the reference on z ≥ 0, which
  differ only at z = 0, where slope · 0 = 0; and the reference takes the maximum of -inf with the row maximum once more,
  which changes nothing. Every change of float format is the identity at the exact values, and every sum is a finite
  sum on the extended reals, whose order does not matter; no step uses the finiteness of the inputs.

  The kernel's result array is read off the generated frame run and value leg (Proof/KernelBody.lean,
  Proof/KernelValue.lean); the reference's off its run, written over its list of operations (Proof/RefRun.lean,
  Proof/RefValue.lean). The ideal pass rewrote nothing, so the idealized kernel is the kernel's own text.
-/
import proofs.«173905_j52063593563027_2_alg».proof.Defs
import proofs.«173905_j52063593563027_2_alg».proof.Proof.Gen.Kernel
import proofs.«173905_j52063593563027_2_alg».proof.Proof.Gen.Kernel.Frame
import proofs.«173905_j52063593563027_2_alg».proof.Proof.Gen.KernelIdeal
import proofs.«173905_j52063593563027_2_alg».proof.Proof.Gen.KernelIdeal.Frame
import proofs.«173905_j52063593563027_2_alg».proof.Proof.Gen.ReferenceIdeal
import proofs.«173905_j52063593563027_2_alg».proof.Proof.Gen.Pre_finite_inputs
import proofs.«173905_j52063593563027_2_alg».proof.Proof.KernelValue
import proofs.«173905_j52063593563027_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end with the result array at `TreeNet.G` of the
    arguments: the two gather records and the two columns of wrapped tokens are the same by computation. -/
theorem algebraic : Cert.algebraic_KernelIdeal_ReferenceIdeal := by
  intro m ρ m' ρ' _ hagree
  refine ⟨fun c => Cert.KernelIdeal.Whole.Gk m c, Cert.KernelIdeal.Whole.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8⟩ := hagree c
  rw [a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
